-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256 : Shape := ⟨1, ![256]⟩
abbrev S256x512 : Shape := ⟨2, ![256, 512]⟩
abbrev S2x256 : Shape := ⟨2, ![2, 256]⟩
abbrev S2 : Shape := ⟨1, ![2]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg5 : FVec F S256 .f32) (main_arg9 : FVec F S256 .f32) (main_arg15 : FVec F S256 .f32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_cst_34 : FVec F S_ .f32 := constant S_ .f32 0x00000000#32
  let main_v89 : FVec F S256 .f32 := broadcastInDim S256 ![] bcast_S_S256 main_cst_34
  let main_v90 : IVec S256 1 := cmpf .oge main_arg5 main_v89
  let main_c_35 : IVec S_ 1 := constantI S_ 1 1#1
  let main_v91 : IVec S_ 1 := (fun x v => Host.reduce IntOp.andi x v reducesTo_S256_S_d0 h_S_) main_v90 main_c_35
  let main_v92 : IVec S_ 1 := andi main_v88 main_v91
  let main_cst_36 : FVec F S_ .f32 := constant S_ .f32 0x00000000#32
  let main_v93 : FVec F S256 .f32 := broadcastInDim S256 ![] bcast_S_S256 main_cst_36
  let main_v94 : IVec S256 1 := cmpf .oge main_arg9 main_v93
  let main_c_37 : IVec S_ 1 := constantI S_ 1 1#1
  let main_v95 : IVec S_ 1 := (fun x v => Host.reduce IntOp.andi x v reducesTo_S256_S_d0 h_S_) main_v94 main_c_37
  let main_v96 : IVec S_ 1 := andi main_v92 main_v95
  let main_cst_38 : FVec F S_ .f32 := constant S_ .f32 0x00000000#32
  let main_v97 : FVec F S256 .f32 := broadcastInDim S256 ![] bcast_S_S256 main_cst_38
  let main_v98 : IVec S256 1 := cmpf .oge main_arg15 main_v97
  let main_c_39 : IVec S_ 1 := constantI S_ 1 1#1
  let main_v99 : IVec S_ 1 := (fun x v => Host.reduce IntOp.andi x v reducesTo_S256_S_d0 h_S_) main_v98 main_c_39
  let main_v100 : IVec S_ 1 := andi main_v96 main_v99
  main_v100

def fn_part4 {F : FTy → Type} [FloatOps F] (main_arg5 : FVec F S256 .f32) (main_arg9 : FVec F S256 .f32) (main_arg14 : FVec F S256 .f32) (main_arg15 : FVec F S256 .f32) (main_arg16 : FVec F S2x256 .f32) (main_arg17 : FVec F S2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S2x256 .f32 := Host.absf main_arg16
  let main_cst_30 : FVec F S_ .f32 := constant S_ .f32 0x7F800000#32
  let main_v80 : FVec F S2x256 .f32 := broadcastInDim S2x256 ![] bcast_S_S2x256 main_cst_30
  let main_v81 : IVec S2x256 1 := cmpf .olt main_v79 main_v80
  let main_c_31 : IVec S_ 1 := constantI S_ 1 1#1
  let main_v82 : IVec S_ 1 := (fun x v => Host.reduce IntOp.andi x v reducesTo_S2x256_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_arg5 main_arg9 main_arg15 main_v83 main_v84 main_cst_32

def fn_part3 {F : FTy → Type} [FloatOps F] (main_arg5 : FVec F S256 .f32) (main_arg9 : FVec F S256 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg5 main_arg9 main_arg14 main_arg15 main_arg16 main_arg17 main_v63 main_v67

def fn_part2 {F : FTy → Type} [FloatOps F] (main_arg5 : FVec F S256 .f32) (main_arg7 : FVec F S256 .f32) (main_arg8 : FVec F S256 .f32) (main_arg9 : FVec F S256 .f32) (main_arg10 : FVec F S256x512 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg5 main_arg9 main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S256x512 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg5 main_arg7 main_arg8 main_arg9 main_arg10 main_arg11 main_arg12 main_arg13 main_arg14 main_arg15 main_arg16 main_arg17 main_v33

def fn {F : FTy → Type} [FloatOps F] (main_arg0 : FVec F S131072x256 .f32) (main_arg1 : FVec F S131072x256 .f32) (main_arg2 : FVec F S256 .f32) (main_arg3 : FVec F S256 .f32) (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S256x512 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S131072x256 : Shape := ⟨2, ![131072, 256]⟩
abbrev S256 : Shape := ⟨1, ![256]⟩
abbrev S256x512 : Shape := ⟨2, ![256, 512]⟩
abbrev S2x256 : Shape := ⟨2, ![2, 256]⟩
abbrev S2 : Shape := ⟨1, ![2]⟩
abbrev S_ : Shape := ⟨0, ![]⟩
abbrev S1x256 : Shape := ⟨2, ![1, 256]⟩
abbrev S512x256 : Shape := ⟨2, ![512, 256]⟩
abbrev S256x256 : Shape := ⟨2, ![256, 256]⟩
abbrev S256x2 : Shape := ⟨2, ![256, 2]⟩
abbrev S1x2 : Shape := ⟨2, ![1, 2]⟩
abbrev S131072x2 : Shape := ⟨2, ![131072, 2]⟩
abbrev S2048x256 : Shape := ⟨2, ![2048, 256]⟩
abbrev S2048x2 : Shape := ⟨2, ![2048, 2]⟩

abbrev nBuf : Space → Nat
  | .hbm => 54
  | .vmem => 18
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S2x256, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S512x256, .f32⟩
  | .hbm, ⟨47, _⟩ => ⟨S256x256, .f32⟩
  | .hbm, ⟨48, _⟩ => ⟨S256x256, .f32⟩
  | .hbm, ⟨49, _⟩ => ⟨S1x256, .f32⟩
  | .hbm, ⟨50, _⟩ => ⟨S256x2, .f32⟩
  | .hbm, ⟨51, _⟩ => ⟨S1x2, .f32⟩
  | .hbm, ⟨52, _⟩ => ⟨S1x2, .f32⟩
  | .hbm, ⟨53, _⟩ => ⟨S131072x2, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x2, .f32⟩
  | .local _ .vmem, ⟨14, _⟩ => ⟨S1x2, .f32⟩
  | .local _ .vmem, ⟨15, _⟩ => ⟨S1x2, .f32⟩
  | .local _ .vmem, ⟨16, _⟩ => ⟨S2048x2, .f32⟩
  | .local _ .vmem, ⟨17, _⟩ => ⟨S2048x2, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S256 : S_.BroadcastsInDim S256 (![] : Fin 0 → Fin S256.rank)
  shapeCasts_S256_S1x256 : S256.ShapeCasts S1x256
  transposes_S256x512_S512x256_1_0 : S256x512.Transposes [1, 0] S512x256
  slices_S512x256_S256x256_0_0 : S512x256.Slices ![0, 0] S256x256
  slices_S512x256_S256x256_256_0 : S512x256.Slices ![256, 0] S256x256
  transposes_S2x256_S256x2_1_0 : S2x256.Transposes [1, 0] S256x2
  shapeCasts_S2_S1x2 : S2.ShapeCasts S1x2
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2.size a ≤ S256x2.size a
  hwx0_11 : ∀ i : grid0.Coords, EltTy.bits .f32 = 32 ∨ (Rect.block (s := S256x2) S256x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2.size a ≤ S1x2.size a
  hwx0_13 : ∀ i : grid0.Coords, EltTy.bits .f32 = 32 ∨ (Rect.block (s := S1x2) S1x2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x2.size a ≤ S131072x2.size a
  hwx0_14 : ∀ i : grid0.Coords, EltTy.bits .f32 = 32 ∨ (Rect.block (s := S131072x2) S2048x2.size (cc0_transform_14 i) (hinb0_14 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S256x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v31) S2048x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S131072x256 : Shape := ⟨2, ![131072, 256]⟩
abbrev S256 : Shape := ⟨1, ![256]⟩
abbrev S256x512 : Shape := ⟨2, ![256, 512]⟩
abbrev S2x256 : Shape := ⟨2, ![2, 256]⟩
abbrev S2 : Shape := ⟨1, ![2]⟩
abbrev S1x256 : Shape := ⟨2, ![1, 256]⟩
abbrev S_ : Shape := ⟨0, ![]⟩
abbrev S131072x512 : Shape := ⟨2, ![131072, 512]⟩
abbrev S512x256 : Shape := ⟨2, ![512, 256]⟩
abbrev S256x2 : Shape := ⟨2, ![256, 2]⟩
abbrev S131072x2 : Shape := ⟨2, ![131072, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S2x256, .f32⟩
  | .hbm, ⟨17, _⟩ => ⟨S2, .f32⟩
  | .hbm, ⟨18, _⟩ => ⟨S2, .f32⟩
  | .hbm, ⟨19, _⟩ => ⟨S1x256, .f32⟩
  | .hbm, ⟨20, _⟩ => ⟨S131072x256, .f32⟩
  | .hbm, ⟨21, _⟩ => ⟨S131072x256, .f32⟩
  | .hbm, ⟨22, _⟩ => ⟨S1x256, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S131072x256, .f32⟩
  | .hbm, ⟨31, _⟩ => ⟨S131072x256, .f32⟩
  | .hbm, ⟨32, _⟩ => ⟨S1x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S1x256, .f32⟩
  | .hbm, ⟨39, _⟩ => ⟨S131072x256, .f32⟩
  | .hbm, ⟨40, _⟩ => ⟨S131072x256, .f32⟩
  | .hbm, ⟨41, _⟩ => ⟨S1x256, .f32⟩
  | .hbm, ⟨42, _⟩ => ⟨S131072x256, .f32⟩
  | .hbm, ⟨43, _⟩ => ⟨S131072x256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S1x256, .f32⟩
  | .hbm, ⟨49, _⟩ => ⟨S131072x256, .f32⟩
  | .hbm, ⟨50, _⟩ => ⟨S131072x256, .f32⟩
  | .hbm, ⟨51, _⟩ => ⟨S1x256, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S131072x512, .f32⟩
  | .hbm, ⟨58, _⟩ => ⟨S512x256, .f32⟩
  | .hbm, ⟨59, _⟩ => ⟨S131072x256, .f32⟩
  | .hbm, ⟨60, _⟩ => ⟨S1x256, .f32⟩
  | .hbm, ⟨61, _⟩ => ⟨S131072x256, .f32⟩
  | .hbm, ⟨62, _⟩ => ⟨S131072x256, .f32⟩
  | .hbm, ⟨63, _⟩ => ⟨S1x256, .f32⟩
  | .hbm, ⟨64, _⟩ => ⟨S131072x256, .f32⟩
  | .hbm, ⟨65, _⟩ => ⟨S131072x256, .f32⟩
  | .hbm, ⟨66, _⟩ => ⟨S1x256, .f32⟩
  | .hbm, ⟨67, _⟩ => ⟨S131072x256, .f32⟩
  | .hbm, ⟨68, _⟩ => ⟨S131072x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S131072x256, .f32⟩
  | .hbm, ⟨75, _⟩ => ⟨S131072x256, .f32⟩
  | .hbm, ⟨76, _⟩ => ⟨S1x256, .f32⟩
  | .hbm, ⟨77, _⟩ => ⟨S131072x256, .f32⟩
  | .hbm, ⟨78, _⟩ => ⟨S131072x256, .f32⟩
  | .hbm, ⟨79, _⟩ => ⟨S_, .f32⟩
  | .hbm, ⟨80, _⟩ => ⟨S131072x256, .f32⟩
  | .hbm, ⟨81, _⟩ => ⟨S131072x256, .f32⟩
  | .hbm, ⟨82, _⟩ => ⟨S256x2, .f32⟩
  | .hbm, ⟨83, _⟩ => ⟨S131072x2, .f32⟩
  | .hbm, ⟨84, _⟩ => ⟨S1x2, .f32⟩
  | .hbm, ⟨85, _⟩ => ⟨S131072x2, .f32⟩
  | .hbm, ⟨86, _⟩ => ⟨S131072x2, .f32⟩
  | .hbm, ⟨87, _⟩ => ⟨S_, .f32⟩
  | .hbm, ⟨88, _⟩ => ⟨S131072x2, .f32⟩
  | .hbm, ⟨89, _⟩ => ⟨S131072x2, .f32⟩
  | .hbm, ⟨90, _⟩ => ⟨S1x2, .f32⟩
  | .hbm, ⟨91, _⟩ => ⟨S131072x2, .f32⟩
  | .hbm, ⟨92, _⟩ => ⟨S131072x2, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call0_cst : Ref sig .tc := ⟨.hbm, 35, rfl⟩
abbrev main_call0_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S256 : S_.BroadcastsInDim S256 (![] : Fin 0 → Fin S256.rank)
  bcast_S_S131072x256 : S_.BroadcastsInDim S131072x256 (![] : Fin 0 → Fin S131072x256.rank)
  concatenates_S131072x256_S131072x256_S131072x512_d1 : Shape.Concatenates [S131072x256, S131072x256] S131072x512 1
  transposes_S256x512_S512x256_1_0 : S256x512.Transposes [1, 0] S512x256
  transposes_S2x256_S256x2_1_0 : S2x256.Transposes [1, 0] S256x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  dot_S131072x512_S512x256_S131072x256_1_0_0_1_n_n_wf : DotDims.WF S131072x512 S512x256 S131072x256 [1] [0] [0] [1] [] []
  dot_S131072x256_S256x2_S131072x2_1_0_0_1_n_n_wf : DotDims.WF S131072x256 S256x2 S131072x2 [1] [0] [0] [1] [] []

variable [Facts₀]

def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf

class Facts : Prop extends Facts₀ where

variable [Facts]
-- ==== Proof.Spec.lean ====
/-
  The function both programs compute, stated once over the eighteen argument arrays, index by index.

  A batch of 131072 rows passes through two inference-mode batch normalisations with ReLU (one per input
  modality, over 256 features each), the two activations side by side (512 features) go through an affine
  layer onto 256 hidden units, a third batch normalisation with ReLU, an affine layer onto 2 outputs, a
  ReLU, and a per-output upper clamp.

  A batch normalisation of `x` with scale `γ`, offset `β`, mean `μ`, variance `v` can be spelt
  `γ·(x − μ)·(v + ε)^(-1/2) + β` (`bn`) or, with `s = γ·(v + ε)^(-1/2)`, as `x·s + (β − μ·s)`
  (`bnFolded`). On the reals the two are one number (distributivity); on the extended reals they differ
  when `(v + ε)^(-1/2)` is infinite, that is at `v = −ε`. The whole function is therefore written over a
  normalisation `N` as a parameter, and the two instances meet on admissible parameters (Proof/Algebra.lean).
-/
import Idealize.ShloMosaic.PureOps.Ideal
import Idealize.ShloMosaic.PureOps.Ideal.Laws
import Idealize.ShloMosaic.Lib.ValueIdx

noncomputable section

namespace Cert.Fusion

open Idealize.ShloMosaic Idealize.ShloMosaic.ValueIdx
open scoped BigOperators

/-- An `a × b` array of extended reals. -/
abbrev Mat (a b : Nat) : Type := FVec Ideal ⟨2, ![a, b]⟩ .f32
/-- A vector of `a` extended reals. -/
abbrev Row (a : Nat) : Type := FVec Ideal ⟨1, ![a]⟩ .f32

/-- The argument arrays, in the order the programs take them. -/
structure Params where
  frame : Mat 131072 256
  imu : Mat 131072 256
  imuG : Row 256
  imuB : Row 256
  imuM : Row 256
  imuV : Row 256
  frameG : Row 256
  frameB : Row 256
  frameM : Row 256
  frameV : Row 256
  W0 : Mat 256 512
  b0 : Row 256
  fcG : Row 256
  fcB : Row 256
  fcM : Row 256
  fcV : Row 256
  W1 : Mat 2 256
  b1 : Row 2

/-- The offset added to a variance before the inverse square root (the f32 nearest to 1e-5). -/
def eps : EReal := Ideal.ofBits .f32 0x3727C5AC#32

/-- `(v + ε)^(-1/2)`. -/
def istd (v : EReal) : EReal := Ideal.rsqrt (v + eps)

/-- Batch normalisation as `γ·(x − μ)·(v + ε)^(-1/2) + β`. -/
def bn (g b mu v x : EReal) : EReal := g * (x - mu) * istd v + b

/-- Batch normalisation with the scale folded: `x·s + (β − μ·s)`, `s = γ·(v + ε)^(-1/2)`. -/
def bnFolded (g b mu v x : EReal) : EReal := x * (g * istd v) + (b - mu * (g * istd v))

/-- `max x 0`. -/
def relu (x : EReal) : EReal := max x 0

/-- The per-output upper bounds, 512 and 384, as their f32 words. -/
def clamp : Fin 2 → EReal
  | 0 => Ideal.ofBits .f32 0x44000000#32
  | 1 => Ideal.ofBits .f32 0x43C00000#32

section
variable (N : EReal → EReal → EReal → EReal → EReal → EReal) (P : Params)

/-- Row `i`'s frame activation at feature `k`. -/
def frameAct (i : Fin 131072) (k : Fin 256) : EReal :=
  relu (N (P.frameG (ix1 k)) (P.frameB (ix1 k)) (P.frameM (ix1 k)) (P.frameV (ix1 k)) (P.frame (ix2 i k)))

/-- Row `i`'s imu activation at feature `k`. -/
def imuAct (i : Fin 131072) (k : Fin 256) : EReal :=
  relu (N (P.imuG (ix1 k)) (P.imuB (ix1 k)) (P.imuM (ix1 k)) (P.imuV (ix1 k)) (P.imu (ix2 i k)))

/-- The first affine layer at hidden unit `h`: the frame activations against columns 0…255 of row `h` of
    `W0`, the imu activations against columns 256…511, and the bias. -/
def hidPre (i : Fin 131072) (h : Fin 256) : EReal :=
  (∑ k : Fin 256, frameAct N P i k * P.W0 (ix2 h (⟨k.val, by omega⟩ : Fin 512))
    + ∑ k : Fin 256, imuAct N P i k * P.W0 (ix2 h (⟨256 + k.val, by omega⟩ : Fin 512)))
  + P.b0 (ix1 h)

/-- The hidden activation. -/
def hid (i : Fin 131072) (h : Fin 256) : EReal :=
  relu (N (P.fcG (ix1 h)) (P.fcB (ix1 h)) (P.fcM (ix1 h)) (P.fcV (ix1 h)) (hidPre N P i h))

/-- Output `o` of row `i`. -/
def out (i : Fin 131072) (o : Fin 2) : EReal :=
  min (relu ((∑ h : Fin 256, hid N P i h * P.W1 (ix2 o h)) + P.b1 (ix1 o))) (clamp o)

/-- The result array. -/
def result : Mat 131072 2 := fun j => out N P (j 0) (j 1)

theorem result_apply (i : Fin 131072) (o : Fin 2) : result N P (ix2 i o) = out N P i o := rfl

end

/-- The result as the reference spells the normalisations. -/
abbrev G (P : Params) : Mat 131072 2 := result bn P

/-- The result as the kernel spells them. -/
abbrev GFolded (P : Params) : Mat 131072 2 := result bnFolded P

/-- An extended real that is a real number. -/
def IsReal (x : EReal) : Prop := ∃ r : ℝ, x = (r : EReal)

/-- Parameters on which both spellings are defined and agree: every entry a real number, every variance nonnegative. -/
structure Admissible (P : Params) : Prop where
  frame : ∀ j, IsReal (P.frame j)
  imu : ∀ j, IsReal (P.imu j)
  imuG : ∀ j, IsReal (P.imuG j)
  imuB : ∀ j, IsReal (P.imuB j)
  imuM : ∀ j, IsReal (P.imuM j)
  imuV : ∀ j, IsReal (P.imuV j)
  frameG : ∀ j, IsReal (P.frameG j)
  frameB : ∀ j, IsReal (P.frameB j)
  frameM : ∀ j, IsReal (P.frameM j)
  frameV : ∀ j, IsReal (P.frameV j)
  W0 : ∀ j, IsReal (P.W0 j)
  b0 : ∀ j, IsReal (P.b0 j)
  fcG : ∀ j, IsReal (P.fcG j)
  fcB : ∀ j, IsReal (P.fcB j)
  fcM : ∀ j, IsReal (P.fcM j)
  fcV : ∀ j, IsReal (P.fcV j)
  W1 : ∀ j, IsReal (P.W1 j)
  b1 : ∀ j, IsReal (P.b1 j)
  imuV_nonneg : ∀ j, 0 ≤ P.imuV j
  frameV_nonneg : ∀ j, 0 ≤ P.frameV j
  fcV_nonneg : ∀ j, 0 ≤ P.fcV j

end Cert.Fusion

end
-- ==== Proof.Algebra.lean ====
/-
  The two spellings of the result agree on admissible parameters.

  With every operand a real number and the variance nonnegative, `v + ε` is a positive real, so
  `(v + ε)^(-1/2)` is a real number `r`, and `x·(γ·r) + (β − μ·(γ·r)) = γ·(x − μ)·r + β` is the
  distributive law in ℝ. The first layer's activations are then real (a maximum of two reals), the first
  affine layer's output is a finite sum of products of reals plus a real, hence real, and the law applies
  again at the third normalisation. The last affine layer, ReLU and clamp are the same expression on both
  sides.
-/
import proofs.«164280_j24541443129392_2_alg».proof.Proof.Spec

noncomputable section

namespace Cert.Fusion

open Idealize.ShloMosaic Idealize.ShloMosaic.ValueIdx
open scoped BigOperators

/-! ## Real numbers among the extended reals are closed under the operations used -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.relu {x : EReal} (hx : IsReal x) : IsReal (relu x) := by
  obtain ⟨a, rfl⟩ := hx
  refine ⟨max a 0, ?_⟩
  unfold Cert.Fusion.relu
  rw [← EReal.coe_zero]
  exact (EReal.coe_strictMono.monotone.map_max).symm

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## The variance offset and the inverse deviation -/

/-- The offset's word denotes the dyadic rational 10995116 / 2^40, a positive real close to 1e-5. -/
theorem eps_eq : eps = ((10995116 / 1099511627776 : ℝ) : EReal) := by
  unfold eps
  simp [Ideal.ofBits, Ideal.ieee, -EReal.coe_mul]; norm_num

/-- On a nonnegative real variance the inverse deviation is a real number. -/
theorem istd_real {v : EReal} (hv : IsReal v) (h0 : 0 ≤ v) : IsReal (istd v) := by
  obtain ⟨a, rfl⟩ := hv
  have ha : 0 ≤ a := EReal.coe_nonneg.mp h0
  have hpos : (0 : ℝ) < a + 10995116 / 1099511627776 := by positivity
  unfold istd
  rw [eps_eq, ← EReal.coe_add, Ideal.rsqrt_coe, if_neg (not_lt.mpr hpos.le), if_neg hpos.ne']
  exact ⟨_, rfl⟩

/-! ## The two spellings of a normalisation -/

/-- On real operands and a nonnegative variance the folded normalisation is the plain one: distributivity in ℝ. -/
theorem bnFolded_eq {g b mu v x : EReal} (hg : IsReal g) (hb : IsReal b) (hmu : IsReal mu) (hv : IsReal v) (h0 : 0 ≤ v)
    (hx : IsReal x) : bnFolded g b mu v x = bn g b mu v x := by
  obtain ⟨r, hr⟩ := istd_real hv h0
  obtain ⟨g', rfl⟩ := hg; obtain ⟨b', rfl⟩ := hb; obtain ⟨mu', rfl⟩ := hmu; obtain ⟨x', rfl⟩ := hx
  unfold bnFolded bn
  rw [hr]
  have e : x' * (g' * r) + (b' - mu' * (g' * r)) = g' * (x' - mu') * r + b' := by ring
  exact_mod_cast congrArg (fun t : ℝ => (t : EReal)) e

/-- The plain normalisation of real operands at a nonnegative variance is real. -/
theorem bn_real {g b mu v x : EReal} (hg : IsReal g) (hb : IsReal b) (hmu : IsReal mu) (hv : IsReal v) (h0 : 0 ≤ v)
    (hx : IsReal x) : IsReal (bn g b mu v x) :=
  (((hg.mul (hx.sub hmu)).mul (istd_real hv h0))).add hb

/-! ## The whole result -/

variable {P : Params}

theorem frameAct_folded (hP : Admissible P) : frameAct bnFolded P = frameAct bn P := by
  funext i k
  unfold frameAct
  rw [bnFolded_eq (hP.frameG _) (hP.frameB _) (hP.frameM _) (hP.frameV _) (hP.frameV_nonneg _) (hP.frame _)]

theorem imuAct_folded (hP : Admissible P) : imuAct bnFolded P = imuAct bn P := by
  funext i k
  unfold imuAct
  rw [bnFolded_eq (hP.imuG _) (hP.imuB _) (hP.imuM _) (hP.imuV _) (hP.imuV_nonneg _) (hP.imu _)]

theorem frameAct_real (hP : Admissible P) (i : Fin 131072) (k : Fin 256) : IsReal (frameAct bn P i k) :=
  (bn_real (hP.frameG _) (hP.frameB _) (hP.frameM _) (hP.frameV _) (hP.frameV_nonneg _) (hP.frame _)).relu

theorem imuAct_real (hP : Admissible P) (i : Fin 131072) (k : Fin 256) : IsReal (imuAct bn P i k) :=
  (bn_real (hP.imuG _) (hP.imuB _) (hP.imuM _) (hP.imuV _) (hP.imuV_nonneg _) (hP.imu _)).relu

theorem hidPre_folded (hP : Admissible P) : hidPre bnFolded P = hidPre bn P := by
  funext i h
  unfold hidPre
  rw [frameAct_folded hP, imuAct_folded hP]

/-- The first affine layer's output is a real number: finitely many products of reals, summed, plus a real. -/
theorem hidPre_real (hP : Admissible P) (i : Fin 131072) (h : Fin 256) : IsReal (hidPre bn P i h) := by
  unfold hidPre
  exact (((isReal_sum _ _ fun k _ => (frameAct_real hP i k).mul (hP.W0 _)).add
    (isReal_sum _ _ fun k _ => (imuAct_real hP i k).mul (hP.W0 _)))).add (hP.b0 _)

theorem hid_folded (hP : Admissible P) : hid bnFolded P = hid bn P := by
  funext i h
  unfold hid
  rw [hidPre_folded hP,
    bnFolded_eq (hP.fcG _) (hP.fcB _) (hP.fcM _) (hP.fcV _) (hP.fcV_nonneg _) (hidPre_real hP i h)]

theorem out_folded (hP : Admissible P) : out bnFolded P = out bn P := by
  funext i o
  unfold out
  rw [hid_folded hP]

/-- On admissible parameters the result spelt with folded normalisations is the result spelt with plain ones. -/
theorem GFolded_eq (hP : Admissible P) : GFolded P = G P := by
  funext j
  show out bnFolded P (j 0) (j 1) = out bn P (j 0) (j 1)
  rw [out_folded hP]

end Cert.Fusion

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.PreDecode.lean ====
/-
  The precondition decoded. The precondition is one word: the conjunction, over the eighteen argument arrays, of
  "every entry has absolute value below +infinity", and then of "every entry is at least 0" for the three variance
  arrays. The word being 1 makes every conjunct 1; each conjunct is a reduction by `and` over a whole array, read
  back entry by entry (Proof/LibFiniteAll.lean). So every entry of every array is a real number and every variance entry
  is nonnegative.
-/
import proofs.«164280_j24541443129392_2_alg».proof.Proof.Spec
import proofs.«164280_j24541443129392_2_alg».proof.Pre_finite_inputs
import proofs.«164280_j24541443129392_2_alg».proof.Proof.LibFiniteAll

noncomputable section

namespace Cert.PreDecode
open Idealize.ShloMosaic
open Cert.Pre_finite_inputs Cert.Pre_finite_inputs.Facts

theorem admissible [Cert.Pre_finite_inputs.Facts] (P : Cert.Fusion.Params)
    (h : Cert.Pre_finite_inputs.fn (F := Ideal) P.frame P.imu P.imuG P.imuB P.imuM P.imuV P.frameG P.frameB P.frameM P.frameV
          P.W0 P.b0 P.fcG P.fcB P.fcM P.fcV P.W1 P.b1 = (fun _ => 1#1)) :
    Cert.Fusion.Admissible P := by
  have e := congrFun h ValueIdx.ix0
  dsimp only [fn, fn_part1, fn_part2, fn_part3, fn_part4, fn_part5, andi] at e
  simp only [IntOp.andi_eq_one] at e
  obtain ⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, g5⟩, g9⟩, g15⟩ := e
  exact
    { frame := Cert.LibFiniteAll.real_of_all P.frame _ _ _ h0
      imu := Cert.LibFiniteAll.real_of_all P.imu _ _ _ h1
      imuG := Cert.LibFiniteAll.real_of_all P.imuG _ _ _ h2
      imuB := Cert.LibFiniteAll.real_of_all P.imuB _ _ _ h3
      imuM := Cert.LibFiniteAll.real_of_all P.imuM _ _ _ h4
      imuV := Cert.LibFiniteAll.real_of_all P.imuV _ _ _ h5
      frameG := Cert.LibFiniteAll.real_of_all P.frameG _ _ _ h6
      frameB := Cert.LibFiniteAll.real_of_all P.frameB _ _ _ h7
      frameM := Cert.LibFiniteAll.real_of_all P.frameM _ _ _ h8
      frameV := Cert.LibFiniteAll.real_of_all P.frameV _ _ _ h9
      W0 := Cert.LibFiniteAll.real_of_all P.W0 _ _ _ h10
      b0 := Cert.LibFiniteAll.real_of_all P.b0 _ _ _ h11
      fcG := Cert.LibFiniteAll.real_of_all P.fcG _ _ _ h12
      fcB := Cert.LibFiniteAll.real_of_all P.fcB _ _ _ h13
      fcM := Cert.LibFiniteAll.real_of_all P.fcM _ _ _ h14
      fcV := Cert.LibFiniteAll.real_of_all P.fcV _ _ _ h15
      W1 := Cert.LibFiniteAll.real_of_all P.W1 _ _ _ h16
      b1 := Cert.LibFiniteAll.real_of_all P.b1 _ _ _ h17
      imuV_nonneg := Cert.LibFiniteAll.nonneg_of_all P.imuV _ _ _ g5
      frameV_nonneg := Cert.LibFiniteAll.nonneg_of_all P.frameV _ _ _ g9
      fcV_nonneg := Cert.LibFiniteAll.nonneg_of_all P.fcV _ _ _ g15 }

end Cert.PreDecode

end
-- ==== Proof.KerGrid.lean ====
/-
  The grid's geometry. The 64 grid points cut the 131072 rows into consecutive blocks of 2048: at point t the
  two feature windows and the output window sit at block (t, 0), every other window at block (0, 0), its whole
  array. So an entry (r, k) of a feature block at point t is entry (2048·t + r, k) of the array, row i of the
  output lies in the block of point i / 2048, and the 64 output blocks cover the output array.
-/
import proofs.«164280_j24541443129392_2_alg».proof.Proof.Gen.KernelIdeal.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The row-blocked windows' index maps, decided over the 64 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-- The other windows' index maps are constant (0, 0), decided over the 64 points. -/
theorem idx_const : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

theorem point_lt (t : Fin cfg0.N) : t.val < 64 := by
  have h : t.val < grid0.N := t.isLt
  rwa [N_0] at h

/-- Entry (r, k) of the first feature window's block at point t is entry (2048·t + r, k) of the first argument. -/
theorem blk0_apply (c : Dev nD) (t : Fin cfg0.N) (ht : t.val < 64) (r : Fin 2048) (k : Fin 256) :
    iblk m c 0 t (ix2 r k)
      = m ((c : Thread nD τ).loc main_arg0) (ix2 (⟨t.val * 2048 + r.val, by omega⟩ : Fin 131072) k) := by
  show V m c main_arg0 (((cfg0.win 0).blk t).view.emb (ix2 r k)) = _
  rw [V_main_arg0]
  refine congrArg _ ?_
  obtain ⟨e0, e1, -⟩ := idx_rows t
  funext a; apply Fin.ext
  match a with
  | ⟨0, _⟩ => show win0_0.index t (0 : Fin 2) * 2048 + 1 * r.val = t.val * 2048 + r.val; omega
  | ⟨1, _⟩ => show win0_0.index t (1 : Fin 2) * 256 + 1 * k.val = k.val; omega

/-- The same of the second feature window and the second argument. -/
theorem blk1_apply (c : Dev nD) (t : Fin cfg0.N) (ht : t.val < 64) (r : Fin 2048) (k : Fin 256) :
    iblk m c 1 t (ix2 r k)
      = m ((c : Thread nD τ).loc main_arg1) (ix2 (⟨t.val * 2048 + r.val, by omega⟩ : Fin 131072) k) := by
  show V m c main_arg1 (((cfg0.win 1).blk t).view.emb (ix2 r k)) = _
  rw [V_main_arg1]
  refine congrArg _ ?_
  obtain ⟨-, -, e0, e1, -⟩ := idx_rows t
  funext a; apply Fin.ext
  match a with
  | ⟨0, _⟩ => show win0_1.index t (0 : Fin 2) * 2048 + 1 * r.val = t.val * 2048 + r.val; omega
  | ⟨1, _⟩ => show win0_1.index t (1 : Fin 2) * 256 + 1 * k.val = k.val; omega

/-- Window 2 sits at block (0, 0) at every point: its block is its whole array. -/
theorem blk2_apply (c : Dev nD) (t : Fin cfg0.N) (p : Fin 1) (q : Fin 256) :
    iblk m c 2 t (ix2 p q) = (V m c main_v18 : S1x256.Idx → EReal) (ix2 p q) := by
  show V m c main_v18 (((cfg0.win 2).blk t).view.emb (ix2 p q)) = _
  refine congrArg _ ?_
  obtain ⟨e0, e1⟩ := (idx_const t).1
  funext a; apply Fin.ext
  match a with
  | ⟨0, _⟩ => show win0_2.index t (0 : Fin 2) * 1 + 1 * p.val = p.val; omega
  | ⟨1, _⟩ => show win0_2.index t (1 : Fin 2) * 256 + 1 * q.val = q.val; omega

/-- Window 3 sits at block (0, 0) at every point: its block is its whole array. -/
theorem blk3_apply (c : Dev nD) (t : Fin cfg0.N) (p : Fin 1) (q : Fin 256) :
    iblk m c 3 t (ix2 p q) = (V m c main_v19 : S1x256.Idx → EReal) (ix2 p q) := by
  show V m c main_v19 (((cfg0.win 3).blk t).view.emb (ix2 p q)) = _
  refine congrArg _ ?_
  obtain ⟨e0, e1⟩ := (idx_const t).2.1
  funext a; apply Fin.ext
  match a with
  | ⟨0, _⟩ => show win0_3.index t (0 : Fin 2) * 1 + 1 * p.val = p.val; omega
  | ⟨1, _⟩ => show win0_3.index t (1 : Fin 2) * 256 + 1 * q.val = q.val; omega

/-- Window 4 sits at block (0, 0) at every point: its block is its whole array. -/
theorem blk4_apply (c : Dev nD) (t : Fin cfg0.N) (p : Fin 1) (q : Fin 256) :
    iblk m c 4 t (ix2 p q) = (V m c main_v20 : S1x256.Idx → EReal) (ix2 p q) := by
  show V m c main_v20 (((cfg0.win 4).blk t).view.emb (ix2 p q)) = _
  refine congrArg _ ?_
  obtain ⟨e0, e1⟩ := (idx_const t).2.2.1
  funext a; apply Fin.ext
  match a with
  | ⟨0, _⟩ => show win0_4.index t (0 : Fin 2) * 1 + 1 * p.val = p.val; omega
  | ⟨1, _⟩ => show win0_4.index t (1 : Fin 2) * 256 + 1 * q.val = q.val; omega

/-- Window 5 sits at block (0, 0) at every point: its block is its whole array. -/
theorem blk5_apply (c : Dev nD) (t : Fin cfg0.N) (p : Fin 1) (q : Fin 256) :
    iblk m c 5 t (ix2 p q) = (V m c main_v21 : S1x256.Idx → EReal) (ix2 p q) := by
  show V m c main_v21 (((cfg0.win 5).blk t).view.emb (ix2 p q)) = _
  refine congrArg _ ?_
  obtain ⟨e0, e1⟩ := (idx_const t).2.2.2.1
  funext a; apply Fin.ext
  match a with
  | ⟨0, _⟩ => show win0_5.index t (0 : Fin 2) * 1 + 1 * p.val = p.val; omega
  | ⟨1, _⟩ => show win0_5.index t (1 : Fin 2) * 256 + 1 * q.val = q.val; omega

/-- Window 6 sits at block (0, 0) at every point: its block is its whole array. -/
theorem blk6_apply (c : Dev nD) (t : Fin cfg0.N) (p : Fin 256) (q : Fin 256) :
    iblk m c 6 t (ix2 p q) = (V m c main_v25 : S256x256.Idx → EReal) (ix2 p q) := by
  show V m c main_v25 (((cfg0.win 6).blk t).view.emb (ix2 p q)) = _
  refine congrArg _ ?_
  obtain ⟨e0, e1⟩ := (idx_const t).2.2.2.2.1
  funext a; apply Fin.ext
  match a with
  | ⟨0, _⟩ => show win0_6.index t (0 : Fin 2) * 256 + 1 * p.val = p.val; omega
  | ⟨1, _⟩ => show win0_6.index t (1 : Fin 2) * 256 + 1 * q.val = q.val; omega

/-- Window 7 sits at block (0, 0) at every point: its block is its whole array. -/
theorem blk7_apply (c : Dev nD) (t : Fin cfg0.N) (p : Fin 256) (q : Fin 256) :
    iblk m c 7 t (ix2 p q) = (V m c main_v26 : S256x256.Idx → EReal) (ix2 p q) := by
  show V m c main_v26 (((cfg0.win 7).blk t).view.emb (ix2 p q)) = _
  refine congrArg _ ?_
  obtain ⟨e0, e1⟩ := (idx_const t).2.2.2.2.2.1
  funext a; apply Fin.ext
  match a with
  | ⟨0, _⟩ => show win0_7.index t (0 : Fin 2) * 256 + 1 * p.val = p.val; omega
  | ⟨1, _⟩ => show win0_7.index t (1 : Fin 2) * 256 + 1 * q.val = q.val; omega

/-- Window 8 sits at block (0, 0) at every point: its block is its whole array. -/
theorem blk8_apply (c : Dev nD) (t : Fin cfg0.N) (p : Fin 1) (q : Fin 256) :
    iblk m c 8 t (ix2 p q) = (V m c main_v27 : S1x256.Idx → EReal) (ix2 p q) := by
  show V m c main_v27 (((cfg0.win 8).blk t).view.emb (ix2 p q)) = _
  refine congrArg _ ?_
  obtain ⟨e0, e1⟩ := (idx_const t).2.2.2.2.2.2.1
  funext a; apply Fin.ext
  match a with
  | ⟨0, _⟩ => show win0_8.index t (0 : Fin 2) * 1 + 1 * p.val = p.val; omega
  | ⟨1, _⟩ => show win0_8.index t (1 : Fin 2) * 256 + 1 * q.val = q.val; omega

/-- Window 9 sits at block (0, 0) at every point: its block is its whole array. -/
theorem blk9_apply (c : Dev nD) (t : Fin cfg0.N) (p : Fin 1) (q : Fin 256) :
    iblk m c 9 t (ix2 p q) = (V m c main_v22 : S1x256.Idx → EReal) (ix2 p q) := by
  show V m c main_v22 (((cfg0.win 9).blk t).view.emb (ix2 p q)) = _
  refine congrArg _ ?_
  obtain ⟨e0, e1⟩ := (idx_const t).2.2.2.2.2.2.2.1
  funext a; apply Fin.ext
  match a with
  | ⟨0, _⟩ => show win0_9.index t (0 : Fin 2) * 1 + 1 * p.val = p.val; omega
  | ⟨1, _⟩ => show win0_9.index t (1 : Fin 2) * 256 + 1 * q.val = q.val; omega

/-- Window 10 sits at block (0, 0) at every point: its block is its whole array. -/
theorem blk10_apply (c : Dev nD) (t : Fin cfg0.N) (p : Fin 1) (q : Fin 256) :
    iblk m c 10 t (ix2 p q) = (V m c main_v23 : S1x256.Idx → EReal) (ix2 p q) := by
  show V m c main_v23 (((cfg0.win 10).blk t).view.emb (ix2 p q)) = _
  refine congrArg _ ?_
  obtain ⟨e0, e1⟩ := (idx_const t).2.2.2.2.2.2.2.2.1
  funext a; apply Fin.ext
  match a with
  | ⟨0, _⟩ => show win0_10.index t (0 : Fin 2) * 1 + 1 * p.val = p.val; omega
  | ⟨1, _⟩ => show win0_10.index t (1 : Fin 2) * 256 + 1 * q.val = q.val; omega

/-- Window 11 sits at block (0, 0) at every point: its block is its whole array. -/
theorem blk11_apply (c : Dev nD) (t : Fin cfg0.N) (p : Fin 256) (q : Fin 2) :
    iblk m c 11 t (ix2 p q) = (V m c main_v28 : S256x2.Idx → EReal) (ix2 p q) := by
  show V m c main_v28 (((cfg0.win 11).blk t).view.emb (ix2 p q)) = _
  refine congrArg _ ?_
  obtain ⟨e0, e1⟩ := (idx_const t).2.2.2.2.2.2.2.2.2.1
  funext a; apply Fin.ext
  match a with
  | ⟨0, _⟩ => show win0_11.index t (0 : Fin 2) * 256 + 1 * p.val = p.val; omega
  | ⟨1, _⟩ => show win0_11.index t (1 : Fin 2) * 2 + 1 * q.val = q.val; omega

/-- Window 12 sits at block (0, 0) at every point: its block is its whole array. -/
theorem blk12_apply (c : Dev nD) (t : Fin cfg0.N) (p : Fin 1) (q : Fin 2) :
    iblk m c 12 t (ix2 p q) = (V m c main_v29 : S1x2.Idx → EReal) (ix2 p q) := by
  show V m c main_v29 (((cfg0.win 12).blk t).view.emb (ix2 p q)) = _
  refine congrArg _ ?_
  obtain ⟨e0, e1⟩ := (idx_const t).2.2.2.2.2.2.2.2.2.2.1
  funext a; apply Fin.ext
  match a with
  | ⟨0, _⟩ => show win0_12.index t (0 : Fin 2) * 1 + 1 * p.val = p.val; omega
  | ⟨1, _⟩ => show win0_12.index t (1 : Fin 2) * 2 + 1 * q.val = q.val; omega

/-- Window 13 sits at block (0, 0) at every point: its block is its whole array. -/
theorem blk13_apply (c : Dev nD) (t : Fin cfg0.N) (p : Fin 1) (q : Fin 2) :
    iblk m c 13 t (ix2 p q) = (V m c main_v30 : S1x2.Idx → EReal) (ix2 p q) := by
  show V m c main_v30 (((cfg0.win 13).blk t).view.emb (ix2 p q)) = _
  refine congrArg _ ?_
  obtain ⟨e0, e1⟩ := (idx_const t).2.2.2.2.2.2.2.2.2.2.2
  funext a; apply Fin.ext
  match a with
  | ⟨0, _⟩ => show win0_13.index t (0 : Fin 2) * 1 + 1 * p.val = p.val; omega
  | ⟨1, _⟩ => show win0_13.index t (1 : Fin 2) * 2 + 1 * q.val = q.val; omega

/-- An index of the output array is in point t's block iff each coordinate is in the block's range on its axis. -/
theorem mem_out_blk (t : Fin cfg0.N) (i : S131072x2.Idx) :
    i ∈ ((cfg0.win 14).blk t).view.set ↔ ∀ a : Fin 2, win0_14.index t a * S2048x2.size a ≤ (i a).val
      ∧ (i a).val < win0_14.index t a * S2048x2.size a + S2048x2.size a := by
  show i ∈ ((View.whole main_v31).slice (win0_14.rect t)).set ↔ _
  rw [View.set_slice_whole, Rect.mem_set_unit]
  exact Iff.rfl

/-- Every index of the output array lies in the block of the point its row divided by 2048 names. -/
theorem out_cover (i : S131072x2.Idx) :
    ∃ t : Fin cfg0.N, (cfg0.win 14).flush t = true ∧ i ∈ ((cfg0.win 14).blk t).view.set := by
  have hi0 : (i 0).val < 131072 := (i 0).isLt
  have hi1 : (i 1).val < 2 := (i 1).isLt
  have hN : grid0.N = 64 := N_0
  have hlt : (i 0).val / 2048 < grid0.N := by rw [hN]; omega
  obtain ⟨-, -, -, -, e0, e1⟩ := idx_rows ⟨(i 0).val / 2048, hlt⟩
  refine ⟨⟨(i 0).val / 2048, hlt⟩, flush0_14 _, ?_⟩
  rw [mem_out_blk]
  intro a
  match a with
  | ⟨0, _⟩ =>
    show win0_14.index ⟨(i 0).val / 2048, hlt⟩ (0 : Fin 2) * 2048 ≤ (i 0).val
      ∧ (i 0).val < win0_14.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_14.index ⟨(i 0).val / 2048, hlt⟩ (1 : Fin 2) * 2 ≤ (i 1).val
      ∧ (i 1).val < win0_14.index ⟨(i 0).val / 2048, hlt⟩ (1 : Fin 2) * 2 + 2
    rw [e1]; omega

end Cert.KernelIdeal.KerValue

end
-- ==== Proof.KerPayload.lean ====
/-
  The kernel body's arithmetic read at one entry of a block.

  A block is 2048 consecutive rows. The body's first value (2048 × 256) is, at row r and hidden unit h, the sum
  over the 256 frame features of max(x·s + t, 0) times the first weight block, plus the same over the imu
  features against the second weight block, plus the bias row; here s and t are the rows holding a
  normalisation's folded scale and shift. A matrix product into a zero accumulator is the plain sum of
  products, and a change of float format is the identity, on the extended reals. The body's stored value
  (2048 × 2) applies a third scale-and-shift with a maximum against zero, a product with the 256 × 2 weights,
  a bias, a maximum against zero and a minimum against the bound row.
-/
import proofs.«164280_j24541443129392_2_alg».proof.Proof.Spec
import proofs.«164280_j24541443129392_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.KerValue

open Cert.KernelIdeal Cert.KernelIdeal.Gen Idealize.ShloMosaic Idealize.ShloMosaic.ValueIdx
open scoped BigOperators

/-- A 2048 × 256 by 256 × 256 product into zeros, at (r, h): the sum over the contracted coordinate. -/
theorem matmul_hidden_apply (A : FVec Ideal S2048x256 .bf16) (B : FVec Ideal S256x256 .bf16) (r : Fin 2048) (h : Fin 256) :
    matmul dot_S2048x256_S256x256_S2048x256_1_0_0_1_n_n none A B (constant S2048x256 .f32 0x00000000#32) (ix2 r h)
      = ∑ k : Fin 256, A (ix2 r k) * B (ix2 k h) := by
  show FloatOps.matmul (DotDims.plain 2048 256 256) none A B (constant _ .f32 0x00000000#32) (ix2 r h) = _
  rw [Ideal.matmul_constant_zero_apply, ← StackMember.dotGeneral_plain_apply none A B r h]
  show _ = FloatOps.dotGeneral _ none _ A B (ix2 r h)
  rw [Ideal.dotGeneral_apply]

/-- A 2048 × 256 by 256 × 2 product into zeros, at (r, o). -/
theorem matmul_out_apply (A : FVec Ideal S2048x256 .bf16) (B : FVec Ideal S256x2 .bf16) (r : Fin 2048) (o : Fin 2) :
    matmul dot_S2048x256_S256x2_S2048x2_1_0_0_1_n_n none A B (constant S2048x2 .f32 0x00000000#32) (ix2 r o)
      = ∑ k : Fin 256, A (ix2 r k) * B (ix2 k o) := by
  show FloatOps.matmul (DotDims.plain 2048 256 2) none A B (constant _ .f32 0x00000000#32) (ix2 r o) = _
  rw [Ideal.matmul_constant_zero_apply, ← StackMember.dotGeneral_plain_apply none A B r o]
  show _ = FloatOps.dotGeneral _ none _ A B (ix2 r o)
  rw [Ideal.dotGeneral_apply]

/-- A scalar zero word splat over a shape reads `0` everywhere. -/
theorem splat_zero_apply {s : Shape} (i : s.Idx) :
    (broadcast s (Scalar.ofBits (F := Ideal) .f32 0x00000000#32) : FVec Ideal s .f32) i = 0 :=
  Ideal.ofBits_zero_f32

/-- The first value of the body at row `r`, hidden unit `h`. -/
theorem pay2_apply (x0 x11 : FVec Ideal S2048x256 .f32) (x1 x5 x12 x16 x33 : FVec Ideal S1x256 .f32)
    (x24 x27 : FVec Ideal S256x256 .f32) (r : Fin 2048) (h : Fin 256) :
    k0_pay2 x0 x1 x5 x11 x12 x16 x24 x27 x33 (ix2 r h)
      = (∑ k : Fin 256, max (x0 (ix2 r k) * x1 (ix2 (0 : Fin 1) k) + x5 (ix2 (0 : Fin 1) k)) 0 * x24 (ix2 k h)
          + ∑ k : Fin 256, max (x11 (ix2 r k) * x12 (ix2 (0 : Fin 1) k) + x16 (ix2 (0 : Fin 1) k)) 0 * x27 (ix2 k h))
        + x33 (ix2 (0 : Fin 1) h) := by
  unfold k0_pay2
  simp only [addf_apply, matmul_hidden_apply, truncf_apply, maximumf_apply, mulf_apply, shapeCast_self,
    broadcastTo_1b_ab_apply, splat_zero_apply]

/-- The stored value of the body at row `r`, output `o`, from the first value `v`. -/
theorem pay1_apply (v : FVec Ideal S2048x256 .f32) (x37 x41 : FVec Ideal S1x256 .f32) (x48 : FVec Ideal S256x2 .f32)
    (x52 x58 : FVec Ideal S1x2 .f32) (r : Fin 2048) (o : Fin 2) :
    k0_pay1 v x37 x41 x48 x52 x58 (ix2 r o)
      = min (max ((∑ h : Fin 256, max (v (ix2 r h) * x37 (ix2 (0 : Fin 1) h) + x41 (ix2 (0 : Fin 1) h)) 0 * x48 (ix2 h o))
                + x52 (ix2 (0 : Fin 1) o)) 0) (x58 (ix2 (0 : Fin 1) o)) := by
  unfold k0_pay1
  simp only [minimumf_apply, addf_apply, matmul_out_apply, truncf_apply, maximumf_apply, mulf_apply, shapeCast_self,
    broadcastTo_1b_ab_apply, splat_zero_apply]

end Cert.KernelIdeal.KerValue

end
-- ==== Proof.KerBlock.lean ====
/-
  One block of the kernel's output.

  If the body's loaded blocks hold the parameters' entries — the two feature blocks the rows R … R + 2047, the
  scale and shift rows the folded normalisations' `γ·(v + ε)^(-1/2)` and `β − μ·γ·(v + ε)^(-1/2)`, the two
  weight blocks the two halves of a row of the first layer's weights, and so on — then the value the body stores
  at row r, output o is output o of row R + r of the result spelt with folded normalisations: the body's sums are
  the specification's sums term by term.
-/
import proofs.«164280_j24541443129392_2_alg».proof.Proof.Spec
import proofs.«164280_j24541443129392_2_alg».proof.Proof.KerPayload

noncomputable section

namespace Cert.KernelIdeal.KerValue

open Cert.KernelIdeal Cert.KernelIdeal.Gen Idealize.ShloMosaic Idealize.ShloMosaic.ValueIdx Cert.Fusion
open scoped BigOperators

theorem block_out (P : Params) (R : Nat) (hR : R + 2048 ≤ 131072)
    (x0 x1 : FVec Ideal S2048x256 .f32) (x2 x3 x4 x5 : FVec Ideal S1x256 .f32) (x6 x7 : FVec Ideal S256x256 .f32)
    (x8 x9 x10 : FVec Ideal S1x256 .f32) (x11 : FVec Ideal S256x2 .f32) (x12 x13 : FVec Ideal S1x2 .f32)
    (h0 : ∀ (r : Fin 2048) (k : Fin 256), x0 (ix2 r k) = P.frame (ix2 (⟨R + r.val, by omega⟩ : Fin 131072) k))
    (h1 : ∀ (r : Fin 2048) (k : Fin 256), x1 (ix2 r k) = P.imu (ix2 (⟨R + r.val, by omega⟩ : Fin 131072) k))
    (h2 : ∀ k : Fin 256, x2 (ix2 (0 : Fin 1) k) = P.frameG (ix1 k) * istd (P.frameV (ix1 k)))
    (h3 : ∀ k : Fin 256, x3 (ix2 (0 : Fin 1) k)
      = P.frameB (ix1 k) - P.frameM (ix1 k) * (P.frameG (ix1 k) * istd (P.frameV (ix1 k))))
    (h4 : ∀ k : Fin 256, x4 (ix2 (0 : Fin 1) k) = P.imuG (ix1 k) * istd (P.imuV (ix1 k)))
    (h5 : ∀ k : Fin 256, x5 (ix2 (0 : Fin 1) k)
      = P.imuB (ix1 k) - P.imuM (ix1 k) * (P.imuG (ix1 k) * istd (P.imuV (ix1 k))))
    (h6 : ∀ k h : Fin 256, x6 (ix2 k h) = P.W0 (ix2 h (⟨k.val, by omega⟩ : Fin 512)))
    (h7 : ∀ k h : Fin 256, x7 (ix2 k h) = P.W0 (ix2 h (⟨256 + k.val, by omega⟩ : Fin 512)))
    (h8 : ∀ h : Fin 256, x8 (ix2 (0 : Fin 1) h) = P.b0 (ix1 h))
    (h9 : ∀ h : Fin 256, x9 (ix2 (0 : Fin 1) h) = P.fcG (ix1 h) * istd (P.fcV (ix1 h)))
    (h10 : ∀ h : Fin 256, x10 (ix2 (0 : Fin 1) h)
      = P.fcB (ix1 h) - P.fcM (ix1 h) * (P.fcG (ix1 h) * istd (P.fcV (ix1 h))))
    (h11 : ∀ (k : Fin 256) (o : Fin 2), x11 (ix2 k o) = P.W1 (ix2 o k))
    (h12 : ∀ o : Fin 2, x12 (ix2 (0 : Fin 1) o) = P.b1 (ix1 o))
    (h13 : ∀ o : Fin 2, x13 (ix2 (0 : Fin 1) o) = clamp o)
    (r : Fin 2048) (o : Fin 2) :
    k0_pay1 (F := Ideal) (k0_pay2 (F := Ideal) x0 x2 x3 x1 x4 x5 x6 x7 x8) x9 x10 x11 x12 x13 (ix2 r o)
      = out bnFolded P (⟨R + r.val, by omega⟩ : Fin 131072) o := by
  rw [pay1_apply]
  simp only [pay2_apply, h0, h1, h2, h3, h4, h5, h6, h7, h8, h9, h10, h11, h12, h13]
  rfl

end Cert.KernelIdeal.KerValue

end
-- ==== Proof.KerWinParams.lean ====
/-
  The launch arrays as the specification's parameters, and the two entrywise readings the normalisation windows need.

  Before the region the program folds each batch normalisation into a scale s = γ·(v + ε)^(-1/2) and a shift
  β − μ·s, per feature, and lays each out as a [1, 256] row. At feature k the scale row reads γ_k · istd v_k and the
  shift row β_k − μ_k · (γ_k · istd v_k): products, sums, differences and the inverse square root are entrywise, the
  offset ε is one word broadcast to every feature, and a [256] vector laid out as [1, 256] reads at (0, k) its entry k.
-/
import proofs.«164280_j24541443129392_2_alg».proof.Proof.Spec
import proofs.«164280_j24541443129392_2_alg».proof.Proof.Gen.KernelIdeal.Frame
import Idealize.ShloMosaic.Lib.StableHlo.Run
import Idealize.ShloMosaic.Lib.ValueLayout

noncomputable section

namespace Cert.KernelIdeal.KerValue
open Cert.KernelIdeal Cert.KernelIdeal.Gen Idealize.ShloMosaic Idealize.ShloMosaic.TcCoe Idealize.SL.Sem Idealize.ShloMosaic.StableHlo Idealize.ShloMosaic.ValueIdx

/-- Core c's eighteen argument arrays, as launched, in the order the programs take them. -/
def params (m : (ℓ : Loc nD τ sig) → Buf (Elt Ideal) ℓ) (c : Dev nD) : Cert.Fusion.Params where
  frame := m ((c.tc : Thread nD τ).loc main_arg0)
  imu := m ((c.tc : Thread nD τ).loc main_arg1)
  imuG := m ((c.tc : Thread nD τ).loc main_arg2)
  imuB := m ((c.tc : Thread nD τ).loc main_arg3)
  imuM := m ((c.tc : Thread nD τ).loc main_arg4)
  imuV := m ((c.tc : Thread nD τ).loc main_arg5)
  frameG := m ((c.tc : Thread nD τ).loc main_arg6)
  frameB := m ((c.tc : Thread nD τ).loc main_arg7)
  frameM := m ((c.tc : Thread nD τ).loc main_arg8)
  frameV := m ((c.tc : Thread nD τ).loc main_arg9)
  W0 := m ((c.tc : Thread nD τ).loc main_arg10)
  b0 := m ((c.tc : Thread nD τ).loc main_arg11)
  fcG := m ((c.tc : Thread nD τ).loc main_arg12)
  fcB := m ((c.tc : Thread nD τ).loc main_arg13)
  fcM := m ((c.tc : Thread nD τ).loc main_arg14)
  fcV := m ((c.tc : Thread nD τ).loc main_arg15)
  W1 := m ((c.tc : Thread nD τ).loc main_arg16)
  b1 := m ((c.tc : Thread nD τ).loc main_arg17)

/-- The scale row at feature k: γ_k · (v_k + ε)^(-1/2). -/
theorem scale_at (g v : FVec Ideal S256 .f32) (hb : S_.BroadcastsInDim S256 (![] : Fin 0 → Fin S256.rank))
    (hc : S256.ShapeCasts S1x256) (k : Fin 256) :
    shapeCast S1x256 (mulf g (Host.rsqrt (addf v (broadcastInDim S256 ![] hb (constant (F := Ideal) S_ .f32 0x3727C5AC#32))))) hc
        (ix2 (0 : Fin 1) k)
      = g (ix1 k) * Cert.Fusion.istd (v (ix1 k)) := by
  rw [shapeCast_a_1a_apply]; rfl

/-- The shift row at feature k: β_k − μ_k · (γ_k · (v_k + ε)^(-1/2)). -/
theorem shift_at (g b mu v : FVec Ideal S256 .f32) (hb : S_.BroadcastsInDim S256 (![] : Fin 0 → Fin S256.rank))
    (hc : S256.ShapeCasts S1x256) (k : Fin 256) :
    shapeCast S1x256 (subf b (mulf mu (mulf g (Host.rsqrt (addf v
        (broadcastInDim S256 ![] hb (constant (F := Ideal) S_ .f32 0x3727C5AC#32))))))) hc (ix2 (0 : Fin 1) k)
      = b (ix1 k) - mu (ix1 k) * (g (ix1 k) * Cert.Fusion.istd (v (ix1 k))) := by
  rw [shapeCast_a_1a_apply]; rfl

end Cert.KernelIdeal.KerValue

end
-- ==== Proof.KerWinNorm.lean ====
/-
  The six normalisation windows at region entry, read at a feature: for each of the three batch normalisations
  (frame, imu, hidden layer) the scale row γ_k · istd v_k and the shift row β_k − μ_k · (γ_k · istd v_k). Each array is
  first written as one term of the argument arrays (the operations that produced it, composed), then read entrywise.
-/
import proofs.«164280_j24541443129392_2_alg».proof.Proof.KerWinParams

set_option maxRecDepth 16384

noncomputable section

namespace Cert.KernelIdeal.KerValue
open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- Array v18 at region entry is the frame normalisation's scale row, as one term of the argument arrays. -/
theorem V_v18_eq : (V m c main_v18 : S1x256.Idx → EReal) =
    shapeCast S1x256 (mulf (params m c).frameG (Host.rsqrt (addf (params m c).frameV
      (broadcastInDim S256 ![] bcast_S_S256 (constant (F := Ideal) S_ .f32 0x3727C5AC#32))))) shapeCasts_S256_S1x256 := by
  dsimp only [V, hostOps0]; after_results_simp; rfl

theorem V_v18_apply (k : Fin 256) : (V m c main_v18 : S1x256.Idx → EReal) (ix2 (0 : Fin 1) k)
    = (params m c).frameG (ix1 k) * Cert.Fusion.istd ((params m c).frameV (ix1 k)) := by
  rw [V_v18_eq]; exact scale_at _ _ _ _ k

/-- Array v19 at region entry is the frame normalisation's shift row, as one term of the argument arrays. -/
theorem V_v19_eq : (V m c main_v19 : S1x256.Idx → EReal) =
    shapeCast S1x256 (subf (params m c).frameB (mulf (params m c).frameM (mulf (params m c).frameG (Host.rsqrt (addf (params m c).frameV
      (broadcastInDim S256 ![] bcast_S_S256 (constant (F := Ideal) S_ .f32 0x3727C5AC#32))))))) shapeCasts_S256_S1x256 := by
  dsimp only [V, hostOps0]; after_results_simp; rfl

theorem V_v19_apply (k : Fin 256) : (V m c main_v19 : S1x256.Idx → EReal) (ix2 (0 : Fin 1) k)
    = (params m c).frameB (ix1 k) - (params m c).frameM (ix1 k) * ((params m c).frameG (ix1 k) * Cert.Fusion.istd ((params m c).frameV (ix1 k))) := by
  rw [V_v19_eq]; exact shift_at _ _ _ _ _ _ k

/-- Array v20 at region entry is the imu normalisation's scale row, as one term of the argument arrays. -/
theorem V_v20_eq : (V m c main_v20 : S1x256.Idx → EReal) =
    shapeCast S1x256 (mulf (params m c).imuG (Host.rsqrt (addf (params m c).imuV
      (broadcastInDim S256 ![] bcast_S_S256 (constant (F := Ideal) S_ .f32 0x3727C5AC#32))))) shapeCasts_S256_S1x256 := by
  dsimp only [V, hostOps0]; after_results_simp; rfl

theorem V_v20_apply (k : Fin 256) : (V m c main_v20 : S1x256.Idx → EReal) (ix2 (0 : Fin 1) k)
    = (params m c).imuG (ix1 k) * Cert.Fusion.istd ((params m c).imuV (ix1 k)) := by
  rw [V_v20_eq]; exact scale_at _ _ _ _ k

/-- Array v21 at region entry is the imu normalisation's shift row, as one term of the argument arrays. -/
theorem V_v21_eq : (V m c main_v21 : S1x256.Idx → EReal) =
    shapeCast S1x256 (subf (params m c).imuB (mulf (params m c).imuM (mulf (params m c).imuG (Host.rsqrt (addf (params m c).imuV
      (broadcastInDim S256 ![] bcast_S_S256 (constant (F := Ideal) S_ .f32 0x3727C5AC#32))))))) shapeCasts_S256_S1x256 := by
  dsimp only [V, hostOps0]; after_results_simp; rfl

theorem V_v21_apply (k : Fin 256) : (V m c main_v21 : S1x256.Idx → EReal) (ix2 (0 : Fin 1) k)
    = (params m c).imuB (ix1 k) - (params m c).imuM (ix1 k) * ((params m c).imuG (ix1 k) * Cert.Fusion.istd ((params m c).imuV (ix1 k))) := by
  rw [V_v21_eq]; exact shift_at _ _ _ _ _ _ k

/-- Array v22 at region entry is the fc normalisation's scale row, as one term of the argument arrays. -/
theorem V_v22_eq : (V m c main_v22 : S1x256.Idx → EReal) =
    shapeCast S1x256 (mulf (params m c).fcG (Host.rsqrt (addf (params m c).fcV
      (broadcastInDim S256 ![] bcast_S_S256 (constant (F := Ideal) S_ .f32 0x3727C5AC#32))))) shapeCasts_S256_S1x256 := by
  dsimp only [V, hostOps0]; after_results_simp; rfl

theorem V_v22_apply (h : Fin 256) : (V m c main_v22 : S1x256.Idx → EReal) (ix2 (0 : Fin 1) h)
    = (params m c).fcG (ix1 h) * Cert.Fusion.istd ((params m c).fcV (ix1 h)) := by
  rw [V_v22_eq]; exact scale_at _ _ _ _ h

/-- Array v23 at region entry is the fc normalisation's shift row, as one term of the argument arrays. -/
theorem V_v23_eq : (V m c main_v23 : S1x256.Idx → EReal) =
    shapeCast S1x256 (subf (params m c).fcB (mulf (params m c).fcM (mulf (params m c).fcG (Host.rsqrt (addf (params m c).fcV
      (broadcastInDim S256 ![] bcast_S_S256 (constant (F := Ideal) S_ .f32 0x3727C5AC#32))))))) shapeCasts_S256_S1x256 := by
  dsimp only [V, hostOps0]; after_results_simp; rfl

theorem V_v23_apply (h : Fin 256) : (V m c main_v23 : S1x256.Idx → EReal) (ix2 (0 : Fin 1) h)
    = (params m c).fcB (ix1 h) - (params m c).fcM (ix1 h) * ((params m c).fcG (ix1 h) * Cert.Fusion.istd ((params m c).fcV (ix1 h))) := by
  rw [V_v23_eq]; exact shift_at _ _ _ _ _ _ h

end Cert.KernelIdeal.KerValue

end
-- ==== Proof.KerWinAffine.lean ====
/-
  The six affine-layer windows at region entry, read at an index. The first layer's weight W0 ([256, 512], one row
  per hidden unit) is transposed and cut along its rows into the frame half (rows 0…255 of the transpose: columns
  0…255 of W0) and the imu half (rows 256…511: columns 256…511 of W0); the second layer's weight W1 ([2, 256]) is
  transposed; the two biases are laid out as rows [1, 256] and [1, 2]; and the per-output upper bounds are a literal
  [2] array laid out as [1, 2].
-/
import proofs.«164280_j24541443129392_2_alg».proof.Proof.KerWinParams

set_option maxRecDepth 16384

noncomputable section

namespace Cert.KernelIdeal.KerValue
open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- Array v25 at region entry: rows 0…255 of W0 transposed. -/
theorem V_v25_eq : (V m c main_v25 : S256x256.Idx → EReal) =
    extractStridedSlice S256x256 ![0, 0] (transpose S512x256 [1, 0] (params m c).W0 transposes_S256x512_S512x256_1_0)
      slices_S512x256_S256x256_0_0 := by
  dsimp only [V, hostOps0]; after_results_simp; rfl

theorem V_v25_apply (k h : Fin 256) : (V m c main_v25 : S256x256.Idx → EReal) (ix2 k h)
    = (params m c).W0 (ix2 h (⟨k.val, by omega⟩ : Fin 512)) := by
  rw [V_v25_eq, slice2_axis0_apply 0 _ _ k h (⟨k.val, by omega⟩ : Fin 512) (Nat.zero_add _).symm, transpose_ix2_apply]

/-- Array v26 at region entry: rows 256…511 of W0 transposed. -/
theorem V_v26_eq : (V m c main_v26 : S256x256.Idx → EReal) =
    extractStridedSlice S256x256 ![256, 0] (transpose S512x256 [1, 0] (params m c).W0 transposes_S256x512_S512x256_1_0)
      slices_S512x256_S256x256_256_0 := by
  dsimp only [V, hostOps0]; after_results_simp; rfl

theorem V_v26_apply (k h : Fin 256) : (V m c main_v26 : S256x256.Idx → EReal) (ix2 k h)
    = (params m c).W0 (ix2 h (⟨256 + k.val, by omega⟩ : Fin 512)) := by
  rw [V_v26_eq, slice2_axis0_apply 256 _ _ k h (⟨256 + k.val, by omega⟩ : Fin 512) rfl, transpose_ix2_apply]

/-- Array v27 at region entry: the first layer's bias as a row. -/
theorem V_v27_eq : (V m c main_v27 : S1x256.Idx → EReal) = shapeCast S1x256 (params m c).b0 shapeCasts_S256_S1x256 := by
  dsimp only [V, hostOps0]; after_results_simp; rfl

theorem V_v27_apply (h : Fin 256) : (V m c main_v27 : S1x256.Idx → EReal) (ix2 (0 : Fin 1) h) = (params m c).b0 (ix1 h) := by
  rw [V_v27_eq, shapeCast_a_1a_apply]

/-- Array v28 at region entry: W1 transposed. -/
theorem V_v28_eq : (V m c main_v28 : S256x2.Idx → EReal) =
    transpose S256x2 [1, 0] (params m c).W1 transposes_S2x256_S256x2_1_0 := by
  dsimp only [V, hostOps0]; after_results_simp; rfl

theorem V_v28_apply (k : Fin 256) (o : Fin 2) : (V m c main_v28 : S256x2.Idx → EReal) (ix2 k o) = (params m c).W1 (ix2 o k) := by
  rw [V_v28_eq, transpose_ix2_apply]

/-- Array v29 at region entry: the second layer's bias as a row. -/
theorem V_v29_eq : (V m c main_v29 : S1x2.Idx → EReal) = shapeCast S1x2 (params m c).b1 shapeCasts_S2_S1x2 := by
  dsimp only [V, hostOps0]; after_results_simp; rfl

theorem V_v29_apply (o : Fin 2) : (V m c main_v29 : S1x2.Idx → EReal) (ix2 (0 : Fin 1) o) = (params m c).b1 (ix1 o) := by
  rw [V_v29_eq, shapeCast_a_1a_apply]

/-- Array v30 at region entry: the literal array of the two upper bounds, as a row. -/
theorem V_v30_eq : (V m c main_v30 : S1x2.Idx → EReal) =
    shapeCast S1x2 (fun i => Ideal.ofBits .f32 (lit0 (S2.rowMajor i))) shapeCasts_S2_S1x2 := by
  dsimp only [V, hostOps0]; after_results_simp; rfl

theorem V_v30_apply (o : Fin 2) : (V m c main_v30 : S1x2.Idx → EReal) (ix2 (0 : Fin 1) o) = Cert.Fusion.clamp o := by
  rw [V_v30_eq, shapeCast_a_1a_apply]
  match o with
  | ⟨0, _⟩ => rfl
  | ⟨1, _⟩ => rfl

end Cert.KernelIdeal.KerValue

end
-- ==== Proof.KerWindows.lean ====
/-
  What the twelve windows that stage arrays computed before the region hold when the region is entered, read at an
  index as the specification's parameters: the normalisations' scale and shift rows (Proof/KerWinNorm.lean) and the
  affine layers' weights, biases and upper bounds (Proof/KerWinAffine.lean), over the parameters
  `params m c` (Proof/KerWinParams.lean).
-/
import proofs.«164280_j24541443129392_2_alg».proof.Proof.Spec
import proofs.«164280_j24541443129392_2_alg».proof.Proof.Gen.KernelIdeal.Frame
import Idealize.ShloMosaic.Lib.StableHlo.Run
import Idealize.ShloMosaic.Lib.ValueLayout
import proofs.«164280_j24541443129392_2_alg».proof.Proof.KerWinParams
import proofs.«164280_j24541443129392_2_alg».proof.Proof.KerWinNorm
import proofs.«164280_j24541443129392_2_alg».proof.Proof.KerWinAffine
-- ==== Proof.KerFinal.lean ====
/-
  The kernel's result array. At every grid point the body stores, through the output window's block, exactly the
  block of the result spelt with folded normalisations (Proof/KerBlock.lean over the blocks the windows stage:
  Proof/KerGrid.lean, Proof/KerWindows.lean); the 64 blocks cover the array; so after the run the output array is
  that result, and the arguments are as launched.
-/
import proofs.«164280_j24541443129392_2_alg».proof.Proof.Gen.KernelIdeal.Value
import proofs.«164280_j24541443129392_2_alg».proof.Proof.KerGrid
import proofs.«164280_j24541443129392_2_alg».proof.Proof.KerBlock
import proofs.«164280_j24541443129392_2_alg».proof.Proof.KerWindows

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What point `t` writes back is block `t` of the result spelt with folded normalisations. -/
theorem flushed_eq (c : Dev nD) (t : Fin cfg0.N) :
    (dats m 0 c).flushed 14 t
      = ((cfg0.win 14).blk t).view.read (Elt Ideal) (Cert.Fusion.GFolded (params m c)) := by
  rw [Value.flushed14]
  unfold out0_14
  rw [View.canon_unit_zero offsets_zero]
  simp only [View.ld_unit_zero (S := S2048x256) offsets_zero, View.ld_unit_zero (S := S1x256) offsets_zero,
    View.ld_unit_zero (S := S256x256) offsets_zero, View.ld_unit_zero (S := S256x2) offsets_zero,
    View.ld_unit_zero (S := S1x2) offsets_zero]
  have ht := point_lt t
  obtain ⟨-, -, -, -, e0, e1⟩ := idx_rows t
  funext y
  obtain ⟨r, o, rfl⟩ : ∃ (r : Fin 2048) (o : Fin 2), y = ix2 r o := ⟨y 0, y 1, eq_ix2 y⟩
  show k0_pay1 (F := Ideal)
      (k0_pay2 (F := Ideal) (iblk m c 0 t) (iblk m c 2 t) (iblk m c 3 t) (iblk m c 1 t) (iblk m c 4 t) (iblk m c 5 t)
        (iblk m c 6 t) (iblk m c 7 t) (iblk m c 8 t))
      (iblk m c 9 t) (iblk m c 10 t) (iblk m c 11 t) (iblk m c 12 t) (iblk m c 13 t) (ix2 r o)
    = Cert.Fusion.GFolded (params m c) (((cfg0.win 14).blk t).view.emb (ix2 r o))
  have h0 : ∀ (p : Fin 2048) (q : Fin 256), iblk m c 0 t (ix2 p q)
      = (params m c).frame (ix2 (⟨t.val * 2048 + p.val, by omega⟩ : Fin 131072) q) := fun p q => blk0_apply m c t ht p q
  have h1 : ∀ (p : Fin 2048) (q : Fin 256), iblk m c 1 t (ix2 p q)
      = (params m c).imu (ix2 (⟨t.val * 2048 + p.val, by omega⟩ : Fin 131072) q) := fun p q => blk1_apply m c t ht p q
  have h2 : ∀ q : Fin 256, iblk m c 2 t (ix2 (0 : Fin 1) q) = (params m c).frameG (ix1 q) * Cert.Fusion.istd ((params m c).frameV (ix1 q)) :=
    fun q => (blk2_apply m c t 0 q).trans (V_v18_apply m c q)
  have h3 : ∀ q : Fin 256, iblk m c 3 t (ix2 (0 : Fin 1) q)
      = (params m c).frameB (ix1 q) - (params m c).frameM (ix1 q) * ((params m c).frameG (ix1 q) * Cert.Fusion.istd ((params m c).frameV (ix1 q))) :=
    fun q => (blk3_apply m c t 0 q).trans (V_v19_apply m c q)
  have h4 : ∀ q : Fin 256, iblk m c 4 t (ix2 (0 : Fin 1) q) = (params m c).imuG (ix1 q) * Cert.Fusion.istd ((params m c).imuV (ix1 q)) :=
    fun q => (blk4_apply m c t 0 q).trans (V_v20_apply m c q)
  have h5 : ∀ q : Fin 256, iblk m c 5 t (ix2 (0 : Fin 1) q)
      = (params m c).imuB (ix1 q) - (params m c).imuM (ix1 q) * ((params m c).imuG (ix1 q) * Cert.Fusion.istd ((params m c).imuV (ix1 q))) :=
    fun q => (blk5_apply m c t 0 q).trans (V_v21_apply m c q)
  have h6 : ∀ p q : Fin 256, iblk m c 6 t (ix2 p q) = (params m c).W0 (ix2 q (⟨p.val, by omega⟩ : Fin 512)) :=
    fun p q => (blk6_apply m c t p q).trans (V_v25_apply m c p q)
  have h7 : ∀ p q : Fin 256, iblk m c 7 t (ix2 p q) = (params m c).W0 (ix2 q (⟨256 + p.val, by omega⟩ : Fin 512)) :=
    fun p q => (blk7_apply m c t p q).trans (V_v26_apply m c p q)
  have h8 : ∀ q : Fin 256, iblk m c 8 t (ix2 (0 : Fin 1) q) = (params m c).b0 (ix1 q) :=
    fun q => (blk8_apply m c t 0 q).trans (V_v27_apply m c q)
  have h9 : ∀ q : Fin 256, iblk m c 9 t (ix2 (0 : Fin 1) q) = (params m c).fcG (ix1 q) * Cert.Fusion.istd ((params m c).fcV (ix1 q)) :=
    fun q => (blk9_apply m c t 0 q).trans (V_v22_apply m c q)
  have h10 : ∀ q : Fin 256, iblk m c 10 t (ix2 (0 : Fin 1) q)
      = (params m c).fcB (ix1 q) - (params m c).fcM (ix1 q) * ((params m c).fcG (ix1 q) * Cert.Fusion.istd ((params m c).fcV (ix1 q))) :=
    fun q => (blk10_apply m c t 0 q).trans (V_v23_apply m c q)
  have h11 : ∀ (p : Fin 256) (q : Fin 2), iblk m c 11 t (ix2 p q) = (params m c).W1 (ix2 q p) :=
    fun p q => (blk11_apply m c t p q).trans (V_v28_apply m c p q)
  have h12 : ∀ q : Fin 2, iblk m c 12 t (ix2 (0 : Fin 1) q) = (params m c).b1 (ix1 q) :=
    fun q => (blk12_apply m c t 0 q).trans (V_v29_apply m c q)
  have h13 : ∀ q : Fin 2, iblk m c 13 t (ix2 (0 : Fin 1) q) = Cert.Fusion.clamp q :=
    fun q => (blk13_apply m c t 0 q).trans (V_v30_apply m c q)
  refine (block_out (params m c) (t.val * 2048) (by omega)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    h0 h1 h2 h3 h4 h5 h6 h7 h8 h9 h10 h11 h12 h13 r o).trans ?_
  have hi : ((cfg0.win 14).blk t).view.emb (ix2 r o) = ix2 (⟨t.val * 2048 + r.val, by omega⟩ : Fin 131072) o := by
    funext a; apply Fin.ext
    match a with
    | ⟨0, _⟩ => show win0_14.index t (0 : Fin 2) * 2048 + 1 * r.val = t.val * 2048 + r.val; omega
    | ⟨1, _⟩ => show win0_14.index t (1 : Fin 2) * 2 + 1 * o.val = o.val; omega
  rw [hi]
  rfl

/-- The output array after the run is the result spelt with folded normalisations: the blocks cover it. -/
theorem final (c : Dev nD) : (dats m 0 c).arrAt 14 cfg0.N = Cert.Fusion.GFolded (params m c) :=
  (dats m 0 c).arrAt_eq_of_cover 14 (Cert.Fusion.GFolded (params m c)) (fun t _ => flushed_eq m c t) out_cover

/-- Every weakly fair execution of the idealized kernel program terminates with the output array at that result
    and the arguments unchanged. -/
theorem run : θ_run defs (onTc (τ := τ) (main (F := Ideal))) ⟨m, fun _ => 0, ρ⟩ fun r => ∀ c : Dev nD,
      r.2.mem ((c : Thread nD τ).loc main_v31) = Cert.Fusion.GFolded (params m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Value.run_blocks m ρ)

end Cert.KernelIdeal.KerValue

end
-- ==== Proof.RefOps.lean ====
/-
  The reference program's @main as one straight line of host operations.

  The four calls of the outlined rectified-linear function are written out at their call sites, each as its
  three operations (the zero scalar, its broadcast to the operand's shape, the elementwise maximum) over the
  buffers that call names, so the whole of @main is a list of seventy-five operations; running the list in
  order from a memory with zero counters always terminates and leaves every buffer at the fold of the
  operations over the launch contents.
-/
import proofs.«164280_j24541443129392_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the four calls unfolded at their sites. -/
abbrev ops : List (HloOp τ sig (Elt F)) :=
  [ StableHlo.nullary main_cst (fun i => FloatOps.ofBits .f32 (lit0 (S2.rowMajor i))),
    StableHlo.unary main_arg4 main_v0 (broadcastInDim S1x256 ![1] bcast_S256_S1x256_1 : (⟨S256, .f32⟩ : BufTy).Contents (Elt F) → (⟨S1x256, .f32⟩ : BufTy).Contents (Elt F)),
    StableHlo.unary main_v0 main_v1 (broadcastInDim S131072x256 ![0, 1] bcast_S1x256_S131072x256_0_1 : (⟨S1x256, .f32⟩ : BufTy).Contents (Elt F) → (⟨S131072x256, .f32⟩ : BufTy).Contents (Elt F)),
    StableHlo.binary main_arg1 main_v1 main_v2 (subf : (⟨S131072x256, .f32⟩ : BufTy).Contents (Elt F) → (⟨S131072x256, .f32⟩ : BufTy).Contents (Elt F) → (⟨S131072x256, .f32⟩ : BufTy).Contents (Elt F)),
    StableHlo.unary main_arg2 main_v3 (broadcastInDim S1x256 ![1] bcast_S256_S1x256_1 : (⟨S256, .f32⟩ : BufTy).Contents (Elt F) → (⟨S1x256, .f32⟩ : BufTy).Contents (Elt F)),
    StableHlo.unary main_v3 main_v4 (broadcastInDim S131072x256 ![0, 1] bcast_S1x256_S131072x256_0_1 : (⟨S1x256, .f32⟩ : BufTy).Contents (Elt F) → (⟨S131072x256, .f32⟩ : BufTy).Contents (Elt F)),
    StableHlo.binary main_v4 main_v2 main_v5 (mulf : (⟨S131072x256, .f32⟩ : BufTy).Contents (Elt F) → (⟨S131072x256, .f32⟩ : BufTy).Contents (Elt F) → (⟨S131072x256, .f32⟩ : BufTy).Contents (Elt F)),
    StableHlo.nullary main_cst_0 (constant S_ .f32 0x3727C5AC#32),
    StableHlo.unary main_cst_0 main_v6 (broadcastInDim S256 ![] bcast_S_S256 : (⟨S_, .f32⟩ : BufTy).Contents (Elt F) → (⟨S256, .f32⟩ : BufTy).Contents (Elt F)),
    StableHlo.binary main_arg5 main_v6 main_v7 (addf : (⟨S256, .f32⟩ : BufTy).Contents (Elt F) → (⟨S256, .f32⟩ : BufTy).Contents (Elt F) → (⟨S256, .f32⟩ : BufTy).Contents (Elt F)),
    StableHlo.unary main_v7 main_v8 (Host.rsqrt : (⟨S256, .f32⟩ : BufTy).Contents (Elt F) → (⟨S256, .f32⟩ : BufTy).Contents (Elt F)),
    StableHlo.unary main_v8 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S131072x256 ![0, 1] bcast_S1x256_S131072x256_0_1 : (⟨S1x256, .f32⟩ : BufTy).Contents (Elt F) → (⟨S131072x256, .f32⟩ : BufTy).Contents (Elt F)),
    StableHlo.binary main_v5 main_v10 main_v11 (mulf : (⟨S131072x256, .f32⟩ : BufTy).Contents (Elt F) → (⟨S131072x256, .f32⟩ : BufTy).Contents (Elt F) → (⟨S131072x256, .f32⟩ : BufTy).Contents (Elt F)),
    StableHlo.unary main_arg3 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S131072x256 ![0, 1] bcast_S1x256_S131072x256_0_1 : (⟨S1x256, .f32⟩ : BufTy).Contents (Elt F) → (⟨S131072x256, .f32⟩ : BufTy).Contents (Elt F)),
    StableHlo.binary main_v11 main_v13 main_v14 (addf : (⟨S131072x256, .f32⟩ : BufTy).Contents (Elt F) → (⟨S131072x256, .f32⟩ : BufTy).Contents (Elt F) → (⟨S131072x256, .f32⟩ : BufTy).Contents (Elt F)),
    StableHlo.TRef.nullary main_call0.cst (constant S_ .f32 0x00000000#32),
    StableHlo.TRef.unary main_call0.cst main_call0.v0 (broadcastInDim S131072x256 ![] bcast_S_S131072x256),
    StableHlo.TRef.binary (.of main_v14) main_call0.v0 main_call0.v1 maximumf,
    StableHlo.unary main_arg8 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S131072x256 ![0, 1] bcast_S1x256_S131072x256_0_1 : (⟨S1x256, .f32⟩ : BufTy).Contents (Elt F) → (⟨S131072x256, .f32⟩ : BufTy).Contents (Elt F)),
    StableHlo.binary main_arg0 main_v17 main_v18 (subf : (⟨S131072x256, .f32⟩ : BufTy).Contents (Elt F) → (⟨S131072x256, .f32⟩ : BufTy).Contents (Elt F) → (⟨S131072x256, .f32⟩ : BufTy).Contents (Elt F)),
    StableHlo.unary main_arg6 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S131072x256 ![0, 1] bcast_S1x256_S131072x256_0_1 : (⟨S1x256, .f32⟩ : BufTy).Contents (Elt F) → (⟨S131072x256, .f32⟩ : BufTy).Contents (Elt F)),
    StableHlo.binary main_v20 main_v18 main_v21 (mulf : (⟨S131072x256, .f32⟩ : BufTy).Contents (Elt F) → (⟨S131072x256, .f32⟩ : BufTy).Contents (Elt F) → (⟨S131072x256, .f32⟩ : BufTy).Contents (Elt F)),
    StableHlo.nullary main_cst_1 (constant S_ .f32 0x3727C5AC#32),
    StableHlo.unary main_cst_1 main_v22 (broadcastInDim S256 ![] bcast_S_S256 : (⟨S_, .f32⟩ : BufTy).Contents (Elt F) → (⟨S256, .f32⟩ : BufTy).Contents (Elt F)),
    StableHlo.binary main_arg9 main_v22 main_v23 (addf : (⟨S256, .f32⟩ : BufTy).Contents (Elt F) → (⟨S256, .f32⟩ : BufTy).Contents (Elt F) → (⟨S256, .f32⟩ : BufTy).Contents (Elt F)),
    StableHlo.unary main_v23 main_v24 (Host.rsqrt : (⟨S256, .f32⟩ : BufTy).Contents (Elt F) → (⟨S256, .f32⟩ : BufTy).Contents (Elt F)),
    StableHlo.unary main_v24 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S131072x256 ![0, 1] bcast_S1x256_S131072x256_0_1 : (⟨S1x256, .f32⟩ : BufTy).Contents (Elt F) → (⟨S131072x256, .f32⟩ : BufTy).Contents (Elt F)),
    StableHlo.binary main_v21 main_v26 main_v27 (mulf : (⟨S131072x256, .f32⟩ : BufTy).Contents (Elt F) → (⟨S131072x256, .f32⟩ : BufTy).Contents (Elt F) → (⟨S131072x256, .f32⟩ : BufTy).Contents (Elt F)),
    StableHlo.unary main_arg7 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S131072x256 ![0, 1] bcast_S1x256_S131072x256_0_1 : (⟨S1x256, .f32⟩ : BufTy).Contents (Elt F) → (⟨S131072x256, .f32⟩ : BufTy).Contents (Elt F)),
    StableHlo.binary main_v27 main_v29 main_v30 (addf : (⟨S131072x256, .f32⟩ : BufTy).Contents (Elt F) → (⟨S131072x256, .f32⟩ : BufTy).Contents (Elt F) → (⟨S131072x256, .f32⟩ : BufTy).Contents (Elt F)),
    StableHlo.TRef.nullary main_call1.cst (constant S_ .f32 0x00000000#32),
    StableHlo.TRef.unary main_call1.cst main_call1.v0 (broadcastInDim S131072x256 ![] bcast_S_S131072x256),
    StableHlo.TRef.binary (.of main_v30) main_call1.v0 main_call1.v1 maximumf,
    StableHlo.binary main_v31 main_v15 main_v32 ((fun a b => concatenate S131072x512 1 [⟨S131072x256, a⟩, ⟨S131072x256, b⟩] concatenates_S131072x256_S131072x256_S131072x512_d1) : (⟨S131072x256, .f32⟩ : BufTy).Contents (Elt F) → (⟨S131072x256, .f32⟩ : BufTy).Contents (Elt F) → (⟨S131072x512, .f32⟩ : BufTy).Contents (Elt F)),
    StableHlo.unary main_arg10 main_v33 ((transpose S512x256 [1, 0] · transposes_S256x512_S512x256_1_0) : (⟨S256x512, .f32⟩ : BufTy).Contents (Elt F) → (⟨S512x256, .f32⟩ : BufTy).Contents (Elt F)),
    StableHlo.binary main_v32 main_v33 main_v34 ((fun l r => Host.dotGeneral dot_S131072x512_S512x256_S131072x256_1_0_0_1_n_n none l r) : (⟨S131072x512, .f32⟩ : BufTy).Contents (Elt F) → (⟨S512x256, .f32⟩ : BufTy).Contents (Elt F) → (⟨S131072x256, .f32⟩ : BufTy).Contents (Elt F)),
    StableHlo.unary main_arg11 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S131072x256 ![0, 1] bcast_S1x256_S131072x256_0_1 : (⟨S1x256, .f32⟩ : BufTy).Contents (Elt F) → (⟨S131072x256, .f32⟩ : BufTy).Contents (Elt F)),
    StableHlo.binary main_v34 main_v36 main_v37 (addf : (⟨S131072x256, .f32⟩ : BufTy).Contents (Elt F) → (⟨S131072x256, .f32⟩ : BufTy).Contents (Elt F) → (⟨S131072x256, .f32⟩ : BufTy).Contents (Elt F)),
    StableHlo.unary main_arg14 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S131072x256 ![0, 1] bcast_S1x256_S131072x256_0_1 : (⟨S1x256, .f32⟩ : BufTy).Contents (Elt F) → (⟨S131072x256, .f32⟩ : BufTy).Contents (Elt F)),
    StableHlo.binary main_v37 main_v39 main_v40 (subf : (⟨S131072x256, .f32⟩ : BufTy).Contents (Elt F) → (⟨S131072x256, .f32⟩ : BufTy).Contents (Elt F) → (⟨S131072x256, .f32⟩ : BufTy).Contents (Elt F)),
    StableHlo.unary main_arg12 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S131072x256 ![0, 1] bcast_S1x256_S131072x256_0_1 : (⟨S1x256, .f32⟩ : BufTy).Contents (Elt F) → (⟨S131072x256, .f32⟩ : BufTy).Contents (Elt F)),
    StableHlo.binary main_v42 main_v40 main_v43 (mulf : (⟨S131072x256, .f32⟩ : BufTy).Contents (Elt F) → (⟨S131072x256, .f32⟩ : BufTy).Contents (Elt F) → (⟨S131072x256, .f32⟩ : BufTy).Contents (Elt F)),
    StableHlo.nullary main_cst_2 (constant S_ .f32 0x3727C5AC#32),
    StableHlo.unary main_cst_2 main_v44 (broadcastInDim S256 ![] bcast_S_S256 : (⟨S_, .f32⟩ : BufTy).Contents (Elt F) → (⟨S256, .f32⟩ : BufTy).Contents (Elt F)),
    StableHlo.binary main_arg15 main_v44 main_v45 (addf : (⟨S256, .f32⟩ : BufTy).Contents (Elt F) → (⟨S256, .f32⟩ : BufTy).Contents (Elt F) → (⟨S256, .f32⟩ : BufTy).Contents (Elt F)),
    StableHlo.unary main_v45 main_v46 (Host.rsqrt : (⟨S256, .f32⟩ : BufTy).Contents (Elt F) → (⟨S256, .f32⟩ : BufTy).Contents (Elt F)),
    StableHlo.unary main_v46 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S131072x256 ![0, 1] bcast_S1x256_S131072x256_0_1 : (⟨S1x256, .f32⟩ : BufTy).Contents (Elt F) → (⟨S131072x256, .f32⟩ : BufTy).Contents (Elt F)),
    StableHlo.binary main_v43 main_v48 main_v49 (mulf : (⟨S131072x256, .f32⟩ : BufTy).Contents (Elt F) → (⟨S131072x256, .f32⟩ : BufTy).Contents (Elt F) → (⟨S131072x256, .f32⟩ : BufTy).Contents (Elt F)),
    StableHlo.unary main_arg13 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S131072x256 ![0, 1] bcast_S1x256_S131072x256_0_1 : (⟨S1x256, .f32⟩ : BufTy).Contents (Elt F) → (⟨S131072x256, .f32⟩ : BufTy).Contents (Elt F)),
    StableHlo.binary main_v49 main_v51 main_v52 (addf : (⟨S131072x256, .f32⟩ : BufTy).Contents (Elt F) → (⟨S131072x256, .f32⟩ : BufTy).Contents (Elt F) → (⟨S131072x256, .f32⟩ : BufTy).Contents (Elt F)),
    StableHlo.TRef.nullary main_call2.cst (constant S_ .f32 0x00000000#32),
    StableHlo.TRef.unary main_call2.cst main_call2.v0 (broadcastInDim S131072x256 ![] bcast_S_S131072x256),
    StableHlo.TRef.binary (.of main_v52) main_call2.v0 main_call2.v1 maximumf,
    StableHlo.unary main_arg16 main_v54 ((transpose S256x2 [1, 0] · transposes_S2x256_S256x2_1_0) : (⟨S2x256, .f32⟩ : BufTy).Contents (Elt F) → (⟨S256x2, .f32⟩ : BufTy).Contents (Elt F)),
    StableHlo.binary main_v53 main_v54 main_v55 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    StableHlo.unary main_arg17 main_v56 (broadcastInDim S1x2 ![1] bcast_S2_S1x2_1 : (⟨S2, .f32⟩ : BufTy).Contents (Elt F) → (⟨S1x2, .f32⟩ : BufTy).Contents (Elt F)),
    StableHlo.unary main_v56 main_v57 (broadcastInDim S131072x2 ![0, 1] bcast_S1x2_S131072x2_0_1 : (⟨S1x2, .f32⟩ : BufTy).Contents (Elt F) → (⟨S131072x2, .f32⟩ : BufTy).Contents (Elt F)),
    StableHlo.binary main_v55 main_v57 main_v58 (addf : (⟨S131072x2, .f32⟩ : BufTy).Contents (Elt F) → (⟨S131072x2, .f32⟩ : BufTy).Contents (Elt F) → (⟨S131072x2, .f32⟩ : BufTy).Contents (Elt F)),
    StableHlo.TRef.nullary main_call3.cst (constant S_ .f32 0x00000000#32),
    StableHlo.TRef.unary main_call3.cst main_call3.v0 (broadcastInDim S131072x2 ![] bcast_S_S131072x2),
    StableHlo.TRef.binary (.of main_v58) main_call3.v0 main_call3.v1 maximumf,
    StableHlo.unary main_cst main_v60 (broadcastInDim S1x2 ![1] bcast_S2_S1x2_1 : (⟨S2, .f32⟩ : BufTy).Contents (Elt F) → (⟨S1x2, .f32⟩ : BufTy).Contents (Elt F)),
    StableHlo.unary main_v60 main_v61 (broadcastInDim S131072x2 ![0, 1] bcast_S1x2_S131072x2_0_1 : (⟨S1x2, .f32⟩ : BufTy).Contents (Elt F) → (⟨S131072x2, .f32⟩ : BufTy).Contents (Elt F)),
    StableHlo.binary main_v59 main_v61 main_v62 (minimumf : (⟨S131072x2, .f32⟩ : BufTy).Contents (Elt F) → (⟨S131072x2, .f32⟩ : BufTy).Contents (Elt F) → (⟨S131072x2, .f32⟩ : BufTy).Contents (Elt F)) ]

-- seventy-five binds re-associated: the rewrite under the chain recurses once per statement
set_option maxRecDepth 2048 in
set_option maxHeartbeats 4000000 in
/-- @main is that straight line: the two windows and the callee's definition unfolded, both sides are one chain
    of steps once sequencing is re-associated. -/
theorem main_eq (c : Dev nD) : main (F := F) c = seq ops := by
  simp only [main, main_part0, main_part1, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., binary_bufs_sub ..⟩

/-- From any memory with zero counters every weakly fair execution of @main terminates, and every buffer of
    every device ends at the fold of the operations over that device's launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as a composition of named stages.

  Each stage is one mathematically meaningful piece of the network, written with the very operations the program
  applies, so that the program's composed term is this composition by unfolding: a per-feature vector laid along
  every row (`rows256`, `rows2`), the inverse standard deviation `(v + ε)^(-1/2)` per feature (`istdVec`), a batch
  normalisation `γ·(x − μ)·(v + ε)^(-1/2) + β` (`bnArr`), the rectifier `max x 0` (`reluArr`, `reluOut`), the two
  activations side by side (`catArr`), the two affine layers (`hidPreArr`, `outPreArr`), the table of the two upper
  bounds (`boundsVec`), and the whole function of the eighteen argument arrays (`outArr`).
-/
import proofs.«164280_j24541443129392_2_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A vector of 256 entries laid along each of the 131072 rows. -/
def rows256 (y : FVec F S256 .f32) : FVec F S131072x256 .f32 :=
  broadcastInDim S131072x256 ![0, 1] bcast_S1x256_S131072x256_0_1 (broadcastInDim S1x256 ![1] bcast_S256_S1x256_1 y)

/-- A vector of 2 entries laid along each of the 131072 rows. -/
def rows2 (y : FVec F S2 .f32) : FVec F S131072x2 .f32 :=
  broadcastInDim S131072x2 ![0, 1] bcast_S1x2_S131072x2_0_1 (broadcastInDim S1x2 ![1] bcast_S2_S1x2_1 y)

/-- `(v + ε)^(-1/2)` per feature, `ε` the f32 nearest to 1e-5. -/
def istdVec (v : FVec F S256 .f32) : FVec F S256 .f32 :=
  Host.rsqrt (addf v (broadcastInDim S256 ![] bcast_S_S256 (constant S_ .f32 0x3727C5AC#32)))

/-- Batch normalisation of every row: `γ·(x − μ)·(v + ε)^(-1/2) + β`, feature by feature. -/
def bnArr (x : FVec F S131072x256 .f32) (g b mu v : FVec F S256 .f32) : FVec F S131072x256 .f32 :=
  addf (mulf (mulf (rows256 g) (subf x (rows256 mu))) (rows256 (istdVec v))) (rows256 b)

/-- `max x 0`, entry by entry, on a 131072 × 256 array. -/
def reluArr (x : FVec F S131072x256 .f32) : FVec F S131072x256 .f32 :=
  maximumf x (broadcastInDim S131072x256 ![] bcast_S_S131072x256 (constant S_ .f32 0x00000000#32))

/-- `max x 0`, entry by entry, on a 131072 × 2 array. -/
def reluOut (x : FVec F S131072x2 .f32) : FVec F S131072x2 .f32 :=
  maximumf x (broadcastInDim S131072x2 ![] bcast_S_S131072x2 (constant S_ .f32 0x00000000#32))

/-- A normalisation followed by the rectifier. -/
def actArr (x : FVec F S131072x256 .f32) (g b mu v : FVec F S256 .f32) : FVec F S131072x256 .f32 :=
  reluArr (bnArr x g b mu v)

/-- Two 256-feature activations side by side: columns 0…255 the first, 256…511 the second. -/
def catArr (a b : FVec F S131072x256 .f32) : FVec F S131072x512 .f32 :=
  concatenate S131072x512 1 [⟨S131072x256, a⟩, ⟨S131072x256, b⟩] concatenates_S131072x256_S131072x256_S131072x512_d1

/-- The first affine layer: the 512 features against the transpose of `W0`, plus the bias along every row. -/
def hidPreArr (x : FVec F S131072x512 .f32) (W0 : FVec F S256x512 .f32) (b0 : FVec F S256 .f32) : FVec F S131072x256 .f32 :=
  addf (Host.dotGeneral dot_S131072x512_S512x256_S131072x256_1_0_0_1_n_n none x
    (transpose S512x256 [1, 0] W0 transposes_S256x512_S512x256_1_0)) (rows256 b0)

/-- The second affine layer: the 256 hidden units against the transpose of `W1`, plus the bias along every row. -/
def outPreArr (x : FVec F S131072x256 .f32) (W1 : FVec F S2x256 .f32) (b1 : FVec F S2 .f32) : FVec F S131072x2 .f32 :=
  addf (Host.dotGeneral dot_S131072x256_S256x2_S131072x2_1_0_0_1_n_n none x
    (transpose S256x2 [1, 0] W1 transposes_S2x256_S256x2_1_0)) (rows2 b1)

/-- The two upper bounds, as the words of the program's constant table. -/
def boundsVec : FVec F S2 .f32 := fun i => FloatOps.ofBits .f32 (lit0 (S2.rowMajor i))

/-- The whole function: both modalities normalised and rectified, side by side (frame first), the first affine
    layer, its normalisation and rectifier, the second affine layer, the rectifier, the per-output upper bound. -/
def outArr (frame imu : FVec F S131072x256 .f32) (imuG imuB imuM imuV frameG frameB frameM frameV : FVec F S256 .f32)
    (W0 : FVec F S256x512 .f32) (b0 fcG fcB fcM fcV : FVec F S256 .f32) (W1 : FVec F S2x256 .f32) (b1 : FVec F S2 .f32) :
    FVec F S131072x2 .f32 :=
  minimumf
    (reluOut (outPreArr
      (actArr (hidPreArr (catArr (actArr frame frameG frameB frameM frameV) (actArr imu imuG imuB imuM imuV)) W0 b0)
        fcG fcB fcM fcV) W1 b1))
    (rows2 boundsVec)

end Cert.ReferenceIdeal.RefValue

end
-- ==== Proof.RefAfterOut.lean ====
/-
  What the result buffer holds after the straight line: the composition of the named stages, applied to the
  argument buffers' contents. Every intermediate value of the program has one consumer, so the fold of the
  seventy-five operations at the result buffer is a tree with one node per operation, and it is the stages'
  composition by unfolding their definitions.
-/
import proofs.«164280_j24541443129392_2_alg».proof.Proof.RefOps
import proofs.«164280_j24541443129392_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem after_out (V : Valuation τ sig (Elt F)) :
    after ops V (main_v62 : DevRef τ sig)
      = outArr (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  after_results_simp
  rfl

end Cert.ReferenceIdeal.RefValue

end
-- ==== Proof.RefAfterArgs.lean ====
/-
  The straight line writes none of the eighteen argument buffers: after it each still holds its launch contents.
-/
import proofs.«164280_j24541443129392_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

theorem after_arg2 (V : Valuation τ sig (Elt F)) :
    after ops V (main_arg2 : DevRef τ sig) = V (main_arg2 : DevRef τ sig) := by
  after_results_simp

theorem after_arg3 (V : Valuation τ sig (Elt F)) :
    after ops V (main_arg3 : DevRef τ sig) = V (main_arg3 : DevRef τ sig) := by
  after_results_simp

theorem after_arg4 (V : Valuation τ sig (Elt F)) :
    after ops V (main_arg4 : DevRef τ sig) = V (main_arg4 : DevRef τ sig) := by
  after_results_simp

theorem after_arg5 (V : Valuation τ sig (Elt F)) :
    after ops V (main_arg5 : DevRef τ sig) = V (main_arg5 : DevRef τ sig) := by
  after_results_simp

theorem after_arg6 (V : Valuation τ sig (Elt F)) :
    after ops V (main_arg6 : DevRef τ sig) = V (main_arg6 : DevRef τ sig) := by
  after_results_simp

theorem after_arg7 (V : Valuation τ sig (Elt F)) :
    after ops V (main_arg7 : DevRef τ sig) = V (main_arg7 : DevRef τ sig) := by
  after_results_simp

theorem after_arg8 (V : Valuation τ sig (Elt F)) :
    after ops V (main_arg8 : DevRef τ sig) = V (main_arg8 : DevRef τ sig) := by
  after_results_simp

theorem after_arg9 (V : Valuation τ sig (Elt F)) :
    after ops V (main_arg9 : DevRef τ sig) = V (main_arg9 : DevRef τ sig) := by
  after_results_simp

theorem after_arg10 (V : Valuation τ sig (Elt F)) :
    after ops V (main_arg10 : DevRef τ sig) = V (main_arg10 : DevRef τ sig) := by
  after_results_simp

theorem after_arg11 (V : Valuation τ sig (Elt F)) :
    after ops V (main_arg11 : DevRef τ sig) = V (main_arg11 : DevRef τ sig) := by
  after_results_simp

theorem after_arg12 (V : Valuation τ sig (Elt F)) :
    after ops V (main_arg12 : DevRef τ sig) = V (main_arg12 : DevRef τ sig) := by
  after_results_simp

theorem after_arg13 (V : Valuation τ sig (Elt F)) :
    after ops V (main_arg13 : DevRef τ sig) = V (main_arg13 : DevRef τ sig) := by
  after_results_simp

theorem after_arg14 (V : Valuation τ sig (Elt F)) :
    after ops V (main_arg14 : DevRef τ sig) = V (main_arg14 : DevRef τ sig) := by
  after_results_simp

theorem after_arg15 (V : Valuation τ sig (Elt F)) :
    after ops V (main_arg15 : DevRef τ sig) = V (main_arg15 : DevRef τ sig) := by
  after_results_simp

theorem after_arg16 (V : Valuation τ sig (Elt F)) :
    after ops V (main_arg16 : DevRef τ sig) = V (main_arg16 : DevRef τ sig) := by
  after_results_simp

theorem after_arg17 (V : Valuation τ sig (Elt F)) :
    after ops V (main_arg17 : DevRef τ sig) = V (main_arg17 : DevRef τ sig) := by
  after_results_simp

end Cert.ReferenceIdeal.RefValue

end
-- ==== Proof.RefRead.lean ====
/-
  The reference's stages read at an index, at the exact values.

  On the extended reals each stage of the composition is a closed formula in its operands' entries: a vector laid
  along the rows reads its entry at the column; a normalisation is `γ·(x − μ)·(v + ε)^(-1/2) + β`; the rectifier is
  `max x 0` (the zero word denotes 0); the side-by-side array reads its first piece at a column below 256 and its
  second piece, 256 columns earlier, from 256 on; a transposed matrix read at (k, h) is the matrix at (h, k); a
  product of a matrix and a transposed matrix is the sum over the contracted column of the products of the entries.
  A sum over 512 columns is the sum over the first 256 plus the sum over the last 256 — a regrouping of a finite sum
  in a commutative monoid, valid at infinite entries too — which is how the first affine layer meets the
  specification's two sums. The upper bounds' table read at output `o` is the specification's bound at `o`.
-/
import proofs.«164280_j24541443129392_2_alg».proof.Proof.RefStages
import proofs.«164280_j24541443129392_2_alg».proof.Proof.Spec
import Idealize.ShloMosaic.Lib.ValueIdx
import Idealize.ShloMosaic.Lib.ValueLayout
import Idealize.ShloMosaic.Lib.KernelVsHost
import Idealize.ShloMosaic.Lib.StackMember
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

open scoped BigOperators
open Cert.Fusion (bn relu istd eps clamp)

/-! ## Layout operations at an index -/

/-- A vector of `n` entries laid along each of `m` rows (through a one-row matrix), read at (r, t), is entry `t`. -/
theorem rowsBcast_apply {α : Type} {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) (r : Fin m) (t : Fin n) :
    broadcastInDim ⟨2, ![m, n]⟩ ![0, 1] h2 (broadcastInDim ⟨2, ![1, n]⟩ ![1] h1 y) (ix2 r t) = y (ix1 t) := by
  rw [broadcastInDim_oneRow_apply]
  refine broadcastInDim_apply ![1] h1 y (ix2 (0 : Fin 1) t) (ix1 t) ?_
  intro a
  match a with
  | ⟨0, _⟩ =>
    show t.val = if n = 1 then 0 else t.val
    split
    · have := t.isLt; omega
    · rfl

theorem rows256_apply (y : FVec Ideal S256 .f32) (i : Fin 131072) (k : Fin 256) :
    rows256 y (ix2 i k) = y (ix1 k) := by
  unfold rows256; exact rowsBcast_apply _ _ y i k

theorem rows2_apply (y : FVec Ideal S2 .f32) (i : Fin 131072) (o : Fin 2) :
    rows2 y (ix2 i o) = y (ix1 o) := by
  unfold rows2; exact rowsBcast_apply _ _ y i o

/-- A sum over 512 columns is the sum over the first 256 plus the sum over the last 256. -/
theorem sum_split_512 {M : Type} [AddCommMonoid M] (f : Fin 512 → M) :
    ∑ c : Fin 512, f c
      = ∑ k : Fin 256, f (⟨k.val, by omega⟩ : Fin 512) + ∑ k : Fin 256, f (⟨256 + k.val, by omega⟩ : Fin 512) :=
  Fin.sum_univ_add (a := 256) (b := 256) f

/-! ## The stages at an index -/

theorem istdVec_apply (v : FVec Ideal S256 .f32) (k : Fin 256) : istdVec v (ix1 k) = istd (v (ix1 k)) := by
  unfold istdVec
  show Ideal.rsqrt (v (ix1 k) + broadcastInDim S256 ![] bcast_S_S256 (constant (F := Ideal) S_ .f32 0x3727C5AC#32) (ix1 k)) = _
  rw [broadcastInDim_scalar_apply]
  rfl

theorem bnArr_apply (x : FVec Ideal S131072x256 .f32) (g b mu v : FVec Ideal S256 .f32) (i : Fin 131072) (k : Fin 256) :
    bnArr x g b mu v (ix2 i k) = bn (g (ix1 k)) (b (ix1 k)) (mu (ix1 k)) (v (ix1 k)) (x (ix2 i k)) := by
  unfold bnArr
  rw [addf_apply, mulf_apply, mulf_apply, subf_apply, rows256_apply, rows256_apply, rows256_apply, rows256_apply, istdVec_apply]
  rfl

theorem reluArr_apply (x : FVec Ideal S131072x256 .f32) (j : S131072x256.Idx) : reluArr x j = relu (x j) := by
  unfold reluArr
  rw [maximumf_apply, broadcastInDim_scalar_apply, constant_apply, Ideal.ofBits_zero_f32]
  rfl

theorem reluOut_apply (x : FVec Ideal S131072x2 .f32) (j : S131072x2.Idx) : reluOut x j = relu (x j) := by
  unfold reluOut
  rw [maximumf_apply, broadcastInDim_scalar_apply, constant_apply, Ideal.ofBits_zero_f32]
  rfl

theorem actArr_apply (x : FVec Ideal S131072x256 .f32) (g b mu v : FVec Ideal S256 .f32) (i : Fin 131072) (k : Fin 256) :
    actArr x g b mu v (ix2 i k) = relu (bn (g (ix1 k)) (b (ix1 k)) (mu (ix1 k)) (v (ix1 k)) (x (ix2 i k))) := by
  unfold actArr
  rw [reluArr_apply, bnArr_apply]

/-- Columns 0 … 255 of the side-by-side array are the first piece. -/
theorem catArr_apply_left (a b : FVec Ideal S131072x256 .f32) (i : Fin 131072) (k : Fin 256) :
    catArr a b (ix2 i (⟨k.val, by omega⟩ : Fin 512)) = a (ix2 i k) := by
  unfold catArr
  exact concatenate_pair_apply_left (1 : Fin 2) a b _ (ix2 i (⟨k.val, by omega⟩ : Fin 512)) rfl (ix2 i k)
    (fun c => match c with | ⟨0, _⟩ => rfl | ⟨1, _⟩ => rfl)

/-- Columns 256 … 511 of the side-by-side array are the second piece, 256 columns earlier. -/
theorem catArr_apply_right (a b : FVec Ideal S131072x256 .f32) (i : Fin 131072) (k : Fin 256) :
    catArr a b (ix2 i (⟨256 + k.val, by omega⟩ : Fin 512)) = b (ix2 i k) := by
  unfold catArr
  refine concatenate_pair_apply_right (1 : Fin 2) a b _ (ix2 i (⟨256 + k.val, by omega⟩ : Fin 512)) rfl rfl (ix2 i k) ?_ ?_
  · intro c hc
    match c with
    | ⟨0, _⟩ => rfl
    | ⟨1, _⟩ => exact absurd rfl hc
  · show k.val + 256 = 256 + k.val
    omega

/-- The first affine layer at hidden unit `h`: the 512 features against row `h` of `W0`, plus the bias. -/
theorem hidPreArr_apply (x : FVec Ideal S131072x512 .f32) (W0 : FVec Ideal S256x512 .f32) (b0 : FVec Ideal S256 .f32)
    (i : Fin 131072) (h : Fin 256) :
    hidPreArr x W0 b0 (ix2 i h) = (∑ c : Fin 512, x (ix2 i c) * W0 (ix2 h c)) + b0 (ix1 h) := by
  unfold hidPreArr
  rw [addf_apply, rows256_apply]
  refine congrArg (· + b0 (ix1 h)) ?_
  refine (StackMember.dotGeneral_plain_apply (m := 131072) (k := 512) (n := 256) none x
    (transpose S512x256 [1, 0] W0 transposes_S256x512_S512x256_1_0) i h).trans ?_
  refine Finset.sum_congr rfl fun c _ => ?_
  rw [transpose_ix2_apply]

/-- The second affine layer at output `o`: the 256 hidden units against row `o` of `W1`, plus the bias. -/
theorem outPreArr_apply (x : FVec Ideal S131072x256 .f32) (W1 : FVec Ideal S2x256 .f32) (b1 : FVec Ideal S2 .f32)
    (i : Fin 131072) (o : Fin 2) :
    outPreArr x W1 b1 (ix2 i o) = (∑ c : Fin 256, x (ix2 i c) * W1 (ix2 o c)) + b1 (ix1 o) := by
  unfold outPreArr
  rw [addf_apply, rows2_apply]
  refine congrArg (· + b1 (ix1 o)) ?_
  refine (StackMember.dotGeneral_plain_apply (m := 131072) (k := 256) (n := 2) none x
    (transpose S256x2 [1, 0] W1 transposes_S2x256_S256x2_1_0) i o).trans ?_
  refine Finset.sum_congr rfl fun c _ => ?_
  rw [transpose_ix2_apply]

/-- The bounds' table at output `o` is the specification's bound. -/
theorem boundsVec_apply (o : Fin 2) : boundsVec (F := Ideal) (ix1 o) = clamp o := by
  have e : S2.rowMajor (ix1 o) = o := Fin.ext (Shape.rowMajor_val_one (ix1 o))
  unfold boundsVec
  rw [e]
  fin_cases o <;> rfl

end Cert.ReferenceIdeal.RefValue

end
-- ==== Proof.RefSpec.lean ====
/-
  The stages' composition is the specification's function.

  Read at row `i` and output `o`, the composition is: the minimum with the bound at `o` of the rectified second
  affine layer; the hidden unit `h` it sums over is the rectified normalisation of the first affine layer; and the
  first affine layer's sum over the 512 side-by-side features, regrouped as the first 256 (the frame activations)
  plus the last 256 (the imu activations), is the specification's pair of sums. Every step is a reading of an
  operation at an index or a regrouping of a finite sum, so nothing is asked of the entries.
-/
import proofs.«164280_j24541443129392_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

open scoped BigOperators
open Cert.Fusion (bn)

/-- The first affine layer on the side-by-side activations is the specification's, at every hidden unit. -/
theorem hidPre_eq (P : Cert.Fusion.Params) (i : Fin 131072) (h : Fin 256) :
    hidPreArr (catArr (actArr P.frame P.frameG P.frameB P.frameM P.frameV) (actArr P.imu P.imuG P.imuB P.imuM P.imuV))
        P.W0 P.b0 (ix2 i h)
      = Cert.Fusion.hidPre bn P i h := by
  rw [hidPreArr_apply, sum_split_512]
  unfold Cert.Fusion.hidPre Cert.Fusion.frameAct Cert.Fusion.imuAct
  simp only [catArr_apply_left, catArr_apply_right, actArr_apply]

/-- The hidden activation is the specification's. -/
theorem hid_eq (P : Cert.Fusion.Params) (i : Fin 131072) (h : Fin 256) :
    actArr (hidPreArr (catArr (actArr P.frame P.frameG P.frameB P.frameM P.frameV) (actArr P.imu P.imuG P.imuB P.imuM P.imuV))
        P.W0 P.b0) P.fcG P.fcB P.fcM P.fcV (ix2 i h)
      = Cert.Fusion.hid bn P i h := by
  rw [actArr_apply, hidPre_eq]
  rfl

/-- The composition of the stages over a record of argument arrays is the specification's result array. -/
theorem outArr_eq (P : Cert.Fusion.Params) :
    outArr (F := Ideal) P.frame P.imu P.imuG P.imuB P.imuM P.imuV P.frameG P.frameB P.frameM P.frameV P.W0 P.b0 P.fcG P.fcB P.fcM P.fcV P.W1 P.b1 = Cert.Fusion.G P := by
  funext j
  obtain ⟨i, o, rfl⟩ : ∃ (i : Fin 131072) (o : Fin 2), j = ix2 i o := ⟨j 0, j 1, eq_ix2 j⟩
  show _ = Cert.Fusion.out bn P i o
  unfold outArr
  rw [minimumf_apply, rows2_apply, boundsVec_apply, reluOut_apply, outPreArr_apply]
  simp only [hid_eq]
  rfl

end Cert.ReferenceIdeal.RefValue

end
-- ==== Proof.RefValue.lean ====
/-
  The reference's run, against the specification.

  From any memory with zero counters every weakly fair execution of the reference's @main terminates; its result
  buffer then holds the specification's function of the eighteen argument arrays as the memory had them at launch,
  and the eighteen argument buffers hold what they held. The run is the fold of the straight line of operations; at
  the result buffer the fold is the composition of the named stages, which is the specification's function index by
  index; at an argument buffer, which no operation writes, it is the launch contents.
-/
import proofs.«164280_j24541443129392_2_alg».proof.Proof.Spec
import proofs.«164280_j24541443129392_2_alg».proof.Proof.Gen.ReferenceIdeal
import Idealize.ShloMosaic.Lib.StableHlo.Run
import proofs.«164280_j24541443129392_2_alg».proof.Proof.RefOps
import proofs.«164280_j24541443129392_2_alg».proof.Proof.RefAfterOut
import proofs.«164280_j24541443129392_2_alg».proof.Proof.RefAfterArgs
import proofs.«164280_j24541443129392_2_alg».proof.Proof.RefSpec

noncomputable section

namespace Cert.ReferenceIdeal.RefValue

open Cert.ReferenceIdeal Cert.ReferenceIdeal.Gen Idealize.ShloMosaic Idealize.ShloMosaic.TcCoe Idealize.SL.Sem

/-- The argument arrays a memory holds on a device, as the specification's record. -/
def params (m : (ℓ : Loc nD τ sig) → Buf (Elt Ideal) ℓ) (c : Dev nD) : Cert.Fusion.Params where
  frame := m ((c.tc : Thread nD τ).loc main_arg0)
  imu := m ((c.tc : Thread nD τ).loc main_arg1)
  imuG := m ((c.tc : Thread nD τ).loc main_arg2)
  imuB := m ((c.tc : Thread nD τ).loc main_arg3)
  imuM := m ((c.tc : Thread nD τ).loc main_arg4)
  imuV := m ((c.tc : Thread nD τ).loc main_arg5)
  frameG := m ((c.tc : Thread nD τ).loc main_arg6)
  frameB := m ((c.tc : Thread nD τ).loc main_arg7)
  frameM := m ((c.tc : Thread nD τ).loc main_arg8)
  frameV := m ((c.tc : Thread nD τ).loc main_arg9)
  W0 := m ((c.tc : Thread nD τ).loc main_arg10)
  b0 := m ((c.tc : Thread nD τ).loc main_arg11)
  fcG := m ((c.tc : Thread nD τ).loc main_arg12)
  fcB := m ((c.tc : Thread nD τ).loc main_arg13)
  fcM := m ((c.tc : Thread nD τ).loc main_arg14)
  fcV := m ((c.tc : Thread nD τ).loc main_arg15)
  W1 := m ((c.tc : Thread nD τ).loc main_arg16)
  b1 := m ((c.tc : Thread nD τ).loc main_arg17)

/-- Every weakly fair execution of the reference terminates with the specification's result in the result buffer
    and the argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62) = Cert.Fusion.G (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run (defs (F := Ideal)) _ _).mono (fun _ h c =>
    ⟨((h c main_v62).trans (after_out _)).trans (outArr_eq (params m c)),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _),
      (h c main_arg15).trans (after_arg15 _),
      (h c main_arg16).trans (after_arg16 _),
      (h c main_arg17).trans (after_arg17 _)⟩)
    (run_fold m ρ)

end Cert.ReferenceIdeal.RefValue

end
-- ==== Proof.lean ====
/-
  A fused two-modality feed-forward head against its plain reference, equal as extended reals.

  Both programs take a batch of 131072 rows of frame features and of imu features (256 each), normalise each
  modality with an inference-mode batch normalisation followed by a ReLU, apply an affine layer from the 512
  concatenated activations onto 256 hidden units, a third batch normalisation with ReLU, an affine layer onto 2
  outputs, a ReLU, and an upper clamp at (512, 384). The reference does this on whole arrays. The kernel cuts the
  batch into 64 blocks of 2048 rows, and differs in two ways that do not change the value on the extended reals:
    * it folds each normalisation `γ·(x − μ)·(v + ε)^(-1/2) + β` into `x·s + (β − μ·s)` with
      `s = γ·(v + ε)^(-1/2)` computed once — equal by distributivity wherever `(v + ε)^(-1/2)` is a real number,
      which is where the precondition puts us: every input finite and the three variances nonnegative (at
      `v = −ε` the inverse square root is infinite and the two spellings do differ: the reference's own domain
      ends there);
    * it multiplies the frame activations and the imu activations by the two halves of the first weight matrix
      separately and adds, instead of concatenating first — a finite sum split in two.
  The roundings to bf16 before the kernel's matrix products are the identity on the extended reals.

  Proof/Spec.lean states the result once, over the normalisation as a parameter; Proof/Algebra.lean joins the two
  spellings on admissible parameters; Proof/PreDecode.lean reads admissibility off the precondition;
  Proof/KerPayload.lean, KerBlock.lean, KerGrid.lean, KerWindows.lean, KerFinal.lean read the kernel's output array;
  Proof/RefValue.lean reads the reference's. The three frames are the programs' runs with the value dropped, and the
  kernel's idealization rewrote nothing.
-/
import proofs.«164280_j24541443129392_2_alg».proof.Defs
import proofs.«164280_j24541443129392_2_alg».proof.Proof.Gen.Kernel
import proofs.«164280_j24541443129392_2_alg».proof.Proof.Gen.Kernel.Skeleton
import proofs.«164280_j24541443129392_2_alg».proof.Proof.Gen.Kernel.Launch
import proofs.«164280_j24541443129392_2_alg».proof.Proof.Gen.Kernel.Points
import proofs.«164280_j24541443129392_2_alg».proof.Proof.Gen.Kernel.Frame
import proofs.«164280_j24541443129392_2_alg».proof.Proof.Gen.KernelIdeal
import proofs.«164280_j24541443129392_2_alg».proof.Proof.Gen.KernelIdeal.Skeleton
import proofs.«164280_j24541443129392_2_alg».proof.Proof.Gen.KernelIdeal.Launch
import proofs.«164280_j24541443129392_2_alg».proof.Proof.Gen.KernelIdeal.Points
import proofs.«164280_j24541443129392_2_alg».proof.Proof.Gen.KernelIdeal.Frame
import proofs.«164280_j24541443129392_2_alg».proof.Proof.Gen.KernelIdeal.Value
import proofs.«164280_j24541443129392_2_alg».proof.Proof.Gen.ReferenceIdeal
import proofs.«164280_j24541443129392_2_alg».proof.Proof.Gen.Pre_finite_inputs
import proofs.«164280_j24541443129392_2_alg».proof.Proof.Algebra
import proofs.«164280_j24541443129392_2_alg».proof.Proof.PreDecode
import proofs.«164280_j24541443129392_2_alg».proof.Proof.KerFinal
import proofs.«164280_j24541443129392_2_alg».proof.Proof.RefValue
import Idealize.ShloMosaic.Adequacy
import Idealize.ShloMosaic.Init

noncomputable section

namespace Cert.Proof

open Idealize.ShloMosaic Idealize.SL.Sem

/-- Two parameter records with equal arrays are equal. -/
theorem params_ext {P Q : Cert.Fusion.Params}
    (h0 : P.frame = Q.frame) (h1 : P.imu = Q.imu) (h2 : P.imuG = Q.imuG) (h3 : P.imuB = Q.imuB) (h4 : P.imuM = Q.imuM) (h5 : P.imuV = Q.imuV) (h6 : P.frameG = Q.frameG) (h7 : P.frameB = Q.frameB) (h8 : P.frameM = Q.frameM) (h9 : P.frameV = Q.frameV) (h10 : P.W0 = Q.W0) (h11 : P.b0 = Q.b0) (h12 : P.fcG = Q.fcG) (h13 : P.fcB = Q.fcB) (h14 : P.fcM = Q.fcM) (h15 : P.fcV = Q.fcV) (h16 : P.W1 = Q.W1) (h17 : P.b1 = Q.b1) : P = Q := by
  cases P; cases Q
  simp only [Cert.Fusion.Params.mk.injEq]
  exact ⟨h0, h1, h2, h3, h4, h5, h6, h7, h8, h9, h10, h11, h12, h13, h14, h15, h16, h17⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the value dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments the kernel's output array ends at the result spelt with folded
    normalisations and the reference's at the result spelt plainly, of the same parameters; the precondition makes
    the parameters admissible, where the two spellings are one array. -/
theorem algebraic : Cert.algebraic_KernelIdeal_ReferenceIdeal := by
  intro m ρ m' ρ' hpre hagree
  refine ⟨fun c => Cert.Fusion.GFolded (Cert.KernelIdeal.KerValue.params m c), Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11, a12, a13, a14, a15, a16, a17⟩ := hagree c
  have hP : Cert.ReferenceIdeal.RefValue.params m' c = Cert.KernelIdeal.KerValue.params m c :=
    params_ext a0 a1 a2 a3 a4 a5 a6 a7 a8 a9 a10 a11 a12 a13 a14 a15 a16 a17
  rw [hP]
  exact (Cert.Fusion.GFolded_eq
    (Cert.PreDecode.admissible (Cert.KernelIdeal.KerValue.params m c) (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
